-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096 : Shape := ⟨1, ![4096]⟩
abbrev S32000x1024 : Shape := ⟨2, ![32000, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_

variable [Facts]

def fn_part1 {F : FTy → Type} [FloatOps F] (main_arg5 : FVec F S4x4096x1024 .f32) (main_v13 : IVec S_ 1) (main_v16 : IVec S4x4096x1024 1) : IVec S_ 1 :=
  let main_c_5 : IVec S_ 1 := constantI S_ 1 1#1
  let main_v17 : IVec S_ 1 := (fun x v => Host.reduce IntOp.andi x v reducesTo_S4x4096x1024_S_d0_1_2 h_S_) main_v16 main_c_5
  let main_v18 : IVec S_ 1 := andi main_v13 main_v17
  let main_v19 : FVec F S4x4096x1024 .f32 := Host.absf main_arg5
  let main_cst_6 : FVec F S_ .f32 := constant S_ .f32 0x7F800000#32
  let main_v20 : FVec F S4x4096x1024 .f32 := broadcastInDim S4x4096x1024 ![] bcast_S_S4x4096x1024 main_cst_6
  let main_v21 : IVec S4x4096x1024 1 := cmpf .olt main_v19 main_v20
  let main_c_7 : IVec S_ 1 := constantI S_ 1 1#1
  let main_v22 : IVec S_ 1 := (fun x v => Host.reduce IntOp.andi x v reducesTo_S4x4096x1024_S_d0_1_2 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : IVec S4096 32) (main_arg3 : FVec F S32000x1024 .f32) (main_arg4 : FVec F S4x4096x1024 .f32) (main_arg5 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S4x4096x1024 .f32 := Host.absf main_arg4
  let main_cst_4 : FVec F S_ .f32 := constant S_ .f32 0x7F800000#32
  let main_v15 : FVec F S4x4096x1024 .f32 := broadcastInDim S4x4096x1024 ![] bcast_S_S4x4096x1024 main_cst_4
  let main_v16 : IVec S4x4096x1024 1 := cmpf .olt main_v14 main_v15
  fn_part1 (F := F) main_arg5 main_v13 main_v16
-- ==== Kernel.lean ====
abbrev S4x4096x1024 : Shape := ⟨3, ![4, 4096, 1024]⟩
abbrev S4096 : Shape := ⟨1, ![4096]⟩
abbrev S32000x1024 : Shape := ⟨2, ![32000, 1024]⟩
abbrev S_ : Shape := ⟨0, ![]⟩
abbrev S4096x1 : Shape := ⟨2, ![4096, 1]⟩
abbrev S4096x1024 : Shape := ⟨2, ![4096, 1024]⟩
abbrev S1x4096x1024 : Shape := ⟨3, ![1, 4096, 1024]⟩
abbrev S256x1024 : Shape := ⟨2, ![256, 1024]⟩
abbrev S1x256x1024 : Shape := ⟨3, ![1, 256, 1024]⟩
abbrev S256x4096 : Shape := ⟨2, ![256, 4096]⟩

abbrev nBuf : Space → Nat
  | .hbm => 69
  | .vmem => 48
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4096, .i32⟩
  | .hbm, ⟨3, _⟩ => ⟨S32000x1024, .f32⟩
  | .hbm, ⟨4, _⟩ => ⟨S4x4096x1024, .f32⟩
  | .hbm, ⟨5, _⟩ => ⟨S4x4096x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1024, .f32⟩
  | .hbm, ⟨15, _⟩ => ⟨S4x4096x1024, .bf16⟩
  | .hbm, ⟨16, _⟩ => ⟨S4x4096x1024, .bf16⟩
  | .hbm, ⟨17, _⟩ => ⟨S_, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S1x4096x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S1x4096x1024, .bf16⟩
  | .hbm, ⟨26, _⟩ => ⟨S4096x1024, .bf16⟩
  | .hbm, ⟨27, _⟩ => ⟨S1x4096x1024, .bf16⟩
  | .hbm, ⟨28, _⟩ => ⟨S4096x1024, .bf16⟩
  | .hbm, ⟨29, _⟩ => ⟨S4x4096x1024, .f32⟩
  | .hbm, ⟨30, _⟩ => ⟨S4x4096x1024, .f32⟩
  | .hbm, ⟨31, _⟩ => ⟨S1x4096x1024, .f32⟩
  | .hbm, ⟨32, _⟩ => ⟨S4096x1024, .f32⟩
  | .hbm, ⟨33, _⟩ => ⟨S1x4096x1024, .f32⟩
  | .hbm, ⟨34, _⟩ => ⟨S4096x1024, .f32⟩
  | .hbm, ⟨35, _⟩ => ⟨S1x4096x1024, .f32⟩
  | .hbm, ⟨36, _⟩ => ⟨S4096x1024, .f32⟩
  | .hbm, ⟨37, _⟩ => ⟨S1x4096x1024, .bf16⟩
  | .hbm, ⟨38, _⟩ => ⟨S4096x1024, .bf16⟩
  | .hbm, ⟨39, _⟩ => ⟨S1x4096x1024, .bf16⟩
  | .hbm, ⟨40, _⟩ => ⟨S4096x1024, .bf16⟩
  | .hbm, ⟨41, _⟩ => ⟨S4x4096x1024, .f32⟩
  | .hbm, ⟨42, _⟩ => ⟨S4x4096x1024, .f32⟩
  | .hbm, ⟨43, _⟩ => ⟨S1x4096x1024, .f32⟩
  | .hbm, ⟨44, _⟩ => ⟨S4096x1024, .f32⟩
  | .hbm, ⟨45, _⟩ => ⟨S1x4096x1024, .f32⟩
  | .hbm, ⟨46, _⟩ => ⟨S4096x1024, .f32⟩
  | .hbm, ⟨47, _⟩ => ⟨S1x4096x1024, .f32⟩
  | .hbm, ⟨48, _⟩ => ⟨S4096x1024, .f32⟩
  | .hbm, ⟨49, _⟩ => ⟨S1x4096x1024, .bf16⟩
  | .hbm, ⟨50, _⟩ => ⟨S4096x1024, .bf16⟩
  | .hbm, ⟨51, _⟩ => ⟨S1x4096x1024, .bf16⟩
  | .hbm, ⟨52, _⟩ => ⟨S4096x1024, .bf16⟩
  | .hbm, ⟨53, _⟩ => ⟨S4x4096x1024, .f32⟩
  | .hbm, ⟨54, _⟩ => ⟨S4x4096x1024, .f32⟩
  | .hbm, ⟨55, _⟩ => ⟨S1x4096x1024, .f32⟩
  | .hbm, ⟨56, _⟩ => ⟨S4096x1024, .f32⟩
  | .hbm, ⟨57, _⟩ => ⟨S1x4096x1024, .f32⟩
  | .hbm, ⟨58, _⟩ => ⟨S4096x1024, .f32⟩
  | .hbm, ⟨59, _⟩ => ⟨S1x4096x1024, .f32⟩
  | .hbm, ⟨60, _⟩ => ⟨S4096x1024, .f32⟩
  | .hbm, ⟨61, _⟩ => ⟨S1x4096x1024, .bf16⟩
  | .hbm, ⟨62, _⟩ => ⟨S4096x1024, .bf16⟩
  | .hbm, ⟨63, _⟩ => ⟨S1x4096x1024, .bf16⟩
  | .hbm, ⟨64, _⟩ => ⟨S4096x1024, .bf16⟩
  | .hbm, ⟨65, _⟩ => ⟨S4x4096x1024, .f32⟩
  | .hbm, ⟨66, _⟩ => ⟨S4x4096x1024, .f32⟩
  | .hbm, ⟨67, _⟩ => ⟨S1x4096x1024, .f32⟩
  | .hbm, ⟨68, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S4096x1024, .bf16⟩
  | .local _ .vmem, ⟨19, _⟩ => ⟨S4096x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S4096x1024, .bf16⟩
  | .local _ .vmem, ⟨31, _⟩ => ⟨S4096x1024, .bf16⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S4096x1024, .bf16⟩
  | .local _ .vmem, ⟨43, _⟩ => ⟨S4096x1024, .bf16⟩
  | .local _ .vmem, ⟨44, _⟩ => ⟨S1x256x1024, .f32⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v53 : Ref sig .tc := ⟨.hbm, 67, rfl⟩
abbrev main_v54 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S4096x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  bcast_S_S4x4096x1024 : S_.BroadcastsInDim S4x4096x1024 (![] : Fin 0 → Fin S4x4096x1024.rank)
  slices_S4x4096x1024_S1x4096x1024_0_0_0 : S4x4096x1024.Slices ![0, 0, 0] S1x4096x1024
  shapeCasts_S1x4096x1024_S4096x1024 : S1x4096x1024.ShapeCasts S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  gather_S32000x1024_S4096x1_S4096x1024_1_0_n_n_0_1_11024_wf : GatherDims.WF S32000x1024 S4096x1 S4096x1024 [1] [0] [] [0] [] 1 ![1, 1024]
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_7 i = cc0_transform_7 i'
  hinb0_5 : ∀ (i : grid0.Coords) a, (cc0_transform_7 i a + 1) * S1x256x1024.size a ≤ S4x4096x1024.size a
  hwx0_5 : ∀ i : grid0.Coords, EltTy.bits .f32 = 32 ∨ (Rect.block (s := S4x4096x1024) S1x256x1024.size (cc0_transform_7 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_8 i = cc0_transform_8 i'
  hinb0_6 : ∀ (i : grid0.Coords) a, (cc0_transform_8 i a + 1) * S1x256x1024.size a ≤ S4x4096x1024.size a
  hwx0_6 : ∀ i : grid0.Coords, EltTy.bits .f32 = 32 ∨ (Rect.block (s := S4x4096x1024) S1x256x1024.size (cc0_transform_8 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1024.size a ≤ S4096x1024.size a
  hwx1_4 : ∀ i : grid1.Coords, EltTy.bits .bf16 = 32 ∨ (Rect.block (s := S4096x1024) S4096x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_7 i = cc1_transform_7 i'
  hinb1_5 : ∀ (i : grid1.Coords) a, (cc1_transform_7 i a + 1) * S1x256x1024.size a ≤ S4x4096x1024.size a
  hwx1_5 : ∀ i : grid1.Coords, EltTy.bits .f32 = 32 ∨ (Rect.block (s := S4x4096x1024) S1x256x1024.size (cc1_transform_7 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_8 i = cc1_transform_8 i'
  hinb1_6 : ∀ (i : grid1.Coords) a, (cc1_transform_8 i a + 1) * S1x256x1024.size a ≤ S4x4096x1024.size a
  hwx1_6 : ∀ i : grid1.Coords, EltTy.bits .f32 = 32 ∨ (Rect.block (s := S4x4096x1024) S1x256x1024.size (cc1_transform_8 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .f32 = 32 ∨ (Rect.block (s := S4096x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S4096x1024.size a
  hwx2_2 : ∀ i : grid2.Coords, EltTy.bits .f32 = 32 ∨ (Rect.block (s := S4096x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x1024.size a ≤ S4096x1024.size a
  hwx2_4 : ∀ i : grid2.Coords, EltTy.bits .bf16 = 32 ∨ (Rect.block (s := S4096x1024) S4096x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_7 i = cc2_transform_7 i'
  hinb2_5 : ∀ (i : grid2.Coords) a, (cc2_transform_7 i a + 1) * S1x256x1024.size a ≤ S4x4096x1024.size a
  hwx2_5 : ∀ i : grid2.Coords, EltTy.bits .f32 = 32 ∨ (Rect.block (s := S4x4096x1024) S1x256x1024.size (cc2_transform_7 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_8 i = cc2_transform_8 i'
  hinb2_6 : ∀ (i : grid2.Coords) a, (cc2_transform_8 i a + 1) * S1x256x1024.size a ≤ S4x4096x1024.size a
  hwx2_6 : ∀ i : grid2.Coords, EltTy.bits .f32 = 32 ∨ (Rect.block (s := S4x4096x1024) S1x256x1024.size (cc2_transform_8 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S4096x1024.size a
  hwx3_0 : ∀ i : grid3.Coords, EltTy.bits .f32 = 32 ∨ (Rect.block (s := S4096x1024) S256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S4096x1024.size a
  hwx3_1 : ∀ i : grid3.Coords, EltTy.bits .f32 = 32 ∨ (Rect.block (s := S4096x1024) S256x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S4096x1024.size a
  hwx3_2 : ∀ i : grid3.Coords, EltTy.bits .f32 = 32 ∨ (Rect.block (s := S4096x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x1024.size a ≤ S4096x1024.size a
  hwx3_3 : ∀ i : grid3.Coords, EltTy.bits .bf16 = 32 ∨ (Rect.block (s := S4096x1024) S4096x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4096x1024.size a ≤ S4096x1024.size a
  hwx3_4 : ∀ i : grid3.Coords, EltTy.bits .bf16 = 32 ∨ (Rect.block (s := S4096x1024) S4096x1024.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_7 i = cc3_transform_7 i'
  hinb3_5 : ∀ (i : grid3.Coords) a, (cc3_transform_7 i a + 1) * S1x256x1024.size a ≤ S4x4096x1024.size a
  hwx3_5 : ∀ i : grid3.Coords, EltTy.bits .f32 = 32 ∨ (Rect.block (s := S4x4096x1024) S1x256x1024.size (cc3_transform_7 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_8 i = cc3_transform_8 i'
  hinb3_6 : ∀ (i : grid3.Coords) a, (cc3_transform_8 i a + 1) * S1x256x1024.size a ≤ S4x4096x1024.size a
  hwx3_6 : ∀ i : grid3.Coords, EltTy.bits .f32 = 32 ∨ (Rect.block (s := S4x4096x1024) S1x256x1024.size (cc3_transform_8 i) (hinb3_6 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v6) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S1x256x1024.size cc0_transform_7 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x256x1024.size cc0_transform_8 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4096x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S1x256x1024.size cc1_transform_7 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S1x256x1024.size cc1_transform_8 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S4096x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S1x256x1024.size cc2_transform_7 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S1x256x1024.size cc2_transform_8 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S4096x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S4096x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52_0) S1x256x1024.size cc3_transform_7 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v52_1) S1x256x1024.size cc3_transform_8 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4x4096x1024 : Shape := ⟨3, ![4, 4096, 1024]⟩
abbrev S4096 : Shape := ⟨1, ![4096]⟩
abbrev S32000x1024 : Shape := ⟨2, ![32000, 1024]⟩
abbrev S_ : Shape := ⟨0, ![]⟩
abbrev S4096x1 : Shape := ⟨2, ![4096, 1]⟩
abbrev S4096x1024 : Shape := ⟨2, ![4096, 1024]⟩
abbrev S1x4096x1024 : Shape := ⟨3, ![1, 4096, 1024]⟩
abbrev S4096x4096 : Shape := ⟨2, ![4096, 4096]⟩
abbrev S4096x4x1024 : Shape := ⟨3, ![4096, 4, 1024]⟩
abbrev S4096x1x1024 : Shape := ⟨3, ![4096, 1, 1024]⟩

abbrev nBuf : Space → Nat
  | .hbm => 225
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4096, .i32⟩
  | 3 => ⟨S32000x1024, .f32⟩
  | 4 => ⟨S4x4096x1024, .f32⟩
  | 5 => ⟨S4x4096x1024, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x1024, .f32⟩
  | 15 => ⟨S1x4096x1024, .f32⟩
  | 16 => ⟨S4096x1024, .f32⟩
  | 17 => ⟨S4096x4096, .f32⟩
  | 18 => ⟨S1x4096x1024, .f32⟩
  | 19 => ⟨S4096x1024, .f32⟩
  | 20 => ⟨S1x4096x1024, .f32⟩
  | 21 => ⟨S4096x1024, .f32⟩
  | 22 => ⟨S4096x4096, .f32⟩
  | 23 => ⟨S4096x4096, .f32⟩
  | 24 => ⟨S4096x4x1024, .f32⟩
  | 25 => ⟨S4096x1x1024, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1x1024, .f32⟩
  | 36 => ⟨S4096x1024, .f32⟩
  | 37 => ⟨S4096x1024, .f32⟩
  | 38 => ⟨S4096x1x1024, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S1x4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S1x4096x1024, .f32⟩
  | 66 => ⟨S4096x1024, .f32⟩
  | 67 => ⟨S4096x4096, .f32⟩
  | 68 => ⟨S1x4096x1024, .f32⟩
  | 69 => ⟨S4096x1024, .f32⟩
  | 70 => ⟨S1x4096x1024, .f32⟩
  | 71 => ⟨S4096x1024, .f32⟩
  | 72 => ⟨S4096x4096, .f32⟩
  | 73 => ⟨S4096x4096, .f32⟩
  | 74 => ⟨S4096x4x1024, .f32⟩
  | 75 => ⟨S4096x1x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1x1024, .f32⟩
  | 86 => ⟨S4096x1024, .f32⟩
  | 87 => ⟨S4096x1024, .f32⟩
  | 88 => ⟨S4096x1x1024, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1x1024, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S1x4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S1x4096x1024, .f32⟩
  | 116 => ⟨S4096x1024, .f32⟩
  | 117 => ⟨S4096x4096, .f32⟩
  | 118 => ⟨S1x4096x1024, .f32⟩
  | 119 => ⟨S4096x1024, .f32⟩
  | 120 => ⟨S1x4096x1024, .f32⟩
  | 121 => ⟨S4096x1024, .f32⟩
  | 122 => ⟨S4096x4096, .f32⟩
  | 123 => ⟨S4096x4096, .f32⟩
  | 124 => ⟨S4096x4x1024, .f32⟩
  | 125 => ⟨S4096x1x1024, .f32⟩
  | 126 => ⟨S4096x1024, .f32⟩
  | 127 => ⟨S4096x1024, .f32⟩
  | _ => ⟨S4x4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x1x1024, .f32⟩
  | 8 => ⟨S4096x1024, .f32⟩
  | 9 => ⟨S4096x1024, .f32⟩
  | 10 => ⟨S4096x1x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1x1024, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S1x4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S1x4096x1024, .f32⟩
  | 38 => ⟨S4096x1024, .f32⟩
  | 39 => ⟨S4096x4096, .f32⟩
  | 40 => ⟨S1x4096x1024, .f32⟩
  | 41 => ⟨S4096x1024, .f32⟩
  | 42 => ⟨S1x4096x1024, .f32⟩
  | 43 => ⟨S4096x1024, .f32⟩
  | 44 => ⟨S4096x4096, .f32⟩
  | 45 => ⟨S4096x4096, .f32⟩
  | 46 => ⟨S4096x4x1024, .f32⟩
  | 47 => ⟨S4096x1x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1x1024, .f32⟩
  | 58 => ⟨S4096x1024, .f32⟩
  | 59 => ⟨S4096x1024, .f32⟩
  | 60 => ⟨S4096x1x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1x1024, .f32⟩
  | 71 => ⟨S4096x1024, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S1x4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S4x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_10 : Ref sig .tc := ⟨.hbm, 102, rfl⟩
abbrev main_v84 : Ref sig .tc := ⟨.hbm, 103, rfl⟩
abbrev main_v85 : Ref sig .tc := ⟨.hbm, 104, rfl⟩
abbrev main_cst_11 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_14 : Ref sig .tc := ⟨.hbm, 142, rfl⟩
abbrev main_v120 : Ref sig .tc := ⟨.hbm, 143, rfl⟩
abbrev main_v121 : Ref sig .tc := ⟨.hbm, 144, rfl⟩
abbrev main_cst_15 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_16 : Ref sig .tc := ⟨.hbm, 152, rfl⟩
abbrev main_v128 : Ref sig .tc := ⟨.hbm, 153, rfl⟩
abbrev main_v129 : Ref sig .tc := ⟨.hbm, 154, rfl⟩
abbrev main_cst_17 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_cst_18 : Ref sig .tc := ⟨.hbm, 179, rfl⟩
abbrev main_v153 : Ref sig .tc := ⟨.hbm, 180, rfl⟩
abbrev main_v154 : Ref sig .tc := ⟨.hbm, 181, rfl⟩
abbrev main_cst_19 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_20 : Ref sig .tc := ⟨.hbm, 192, rfl⟩
abbrev main_v164 : Ref sig .tc := ⟨.hbm, 193, rfl⟩
abbrev main_v165 : Ref sig .tc := ⟨.hbm, 194, rfl⟩
abbrev main_cst_21 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_cst_22 : Ref sig .tc := ⟨.hbm, 202, rfl⟩
abbrev main_v172 : Ref sig .tc := ⟨.hbm, 203, rfl⟩
abbrev main_v173 : Ref sig .tc := ⟨.hbm, 204, rfl⟩
abbrev main_cst_23 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S4x4096x1024_S1x4096x1024_0_0_0 : S4x4096x1024.Slices ![0, 0, 0] S1x4096x1024
  shapeCasts_S1x4096x1024_S4096x1024 : S1x4096x1024.ShapeCasts S4096x1024
  shapeCasts_S4096x4096_S4096x4x1024 : S4096x4096.ShapeCasts S4096x4x1024
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  bcast_S4096x1024_S1x4096x1024_1_2 : S4096x1024.BroadcastsInDim S1x4096x1024 (![1, 2] : Fin 2 → Fin S1x4096x1024.rank)
  concatenates_S1x4096x1024_S1x4096x1024_S1x4096x1024_S1x4096x1024_S4x4096x1024_d0 : Shape.Concatenates [S1x4096x1024, S1x4096x1024, S1x4096x1024, S1x4096x1024] S4x4096x1024 0
  gather_S32000x1024_S4096x1_S4096x1024_1_0_n_n_0_1_11024_wf : GatherDims.WF S32000x1024 S4096x1 S4096x1024 [1] [0] [] [0] [] 1 ![1, 1024]
  dot_S4096x1024_S4096x1024_S4096x4096_1_1_0_0_n_n_wf : DotDims.WF S4096x1024 S4096x1024 S4096x4096 [1] [1] [0] [0] [] []

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.KernelRun.lean ====
/-
  The kernel program's run with its two result arrays named.

  The program is four kernel launches among stretches of host operations. Its run ends with every buffer the device holds
  outside the launches' scopes at the contents obtained by folding the program's segments over the launch memory: a
  host stretch applies its operations, a launch replaces its arrays by what its write-backs leave. Read at the two
  result buffers and at the six arguments this gives: every execution terminates, without a fault, with the results at
  the fold's contents and the arguments as launched.
-/
import proofs.«122988_j25082609008752_2_alg».proof.Proof.KernelIdealFrame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the last segment
    boundary's contents and the six arguments as launched. -/
theorem run_results : θ_run defs (onTc (τ := τ) (main (F := F))) ⟨m, fun _ => 0, ρ⟩ (fun r => ∀ c : Dev nD,
      r.2.mem ((c.tc : Thread nD τ).loc main_v52_0) = W9 m ρ c (Proc.devRef .tc main_v52_0)
      ∧ r.2.mem ((c.tc : Thread nD τ).loc main_v52_1) = W9 m ρ c (Proc.devRef .tc main_v52_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v52_0 (by decide)),
       h c _ (mem_uc main_v52_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Results

end
-- ==== Proof.Spec.lean ====
/-
  One time step of a four-layer LSTM stack, written as plain functions on the extended reals.

  A layer takes its input rows `x`, the previous hidden rows `h`, the previous memory rows `c` (each 4096 × 1024) and two
  weight matrices `w`, `u` (each 4096 × 1024, one row per gate column). The gate pre-activations are
  `gate r g = ∑ₖ x(r,k)·w(g,k) + ∑ₖ h(r,k)·u(g,k)`; their 4096 columns are four consecutive groups of 1024 — input gate,
  candidate, forget gate, output gate. The new memory is `σ(forget)·c + σ(input)·tanh(candidate)` and the new hidden
  state `σ(output)·tanh(new memory)`, with `σ x = 1 / (1 + e⁻ˣ)`. Layer `l + 1` takes layer `l`'s new hidden state as
  its input rows. The results are the four layers' hidden states, and their memories, stacked along a leading axis.
-/
import Idealize.ShloMosaic.Lib.ValueIdx
import Idealize.ShloMosaic.PureOps.Ideal

noncomputable section

namespace Cert.Lstm

open Idealize.ShloMosaic Idealize.ShloMosaic.ValueIdx

/-- A 4096 × 1024 matrix of extended reals (rows of activations, or one layer's weights by gate column). -/
abbrev Mat : Type := (⟨2, ![4096, 1024]⟩ : Shape).Idx → EReal
/-- Four such matrices stacked along a leading axis. -/
abbrev Stack : Type := (⟨3, ![4, 4096, 1024]⟩ : Shape).Idx → EReal

/-- Column `1024·q + d` of the gate matrix: entry `d` of gate group `q`. -/
def col (q : Fin 4) (d : Fin 1024) : Fin 4096 := ⟨1024 * q.val + d.val, by omega⟩

/-- The gate pre-activation of row `r` at gate column `g`. -/
def gate (x h w u : Mat) (r g : Fin 4096) : EReal :=
  (∑ k : Fin 1024, x (ix2 r k) * w (ix2 g k)) + ∑ k : Fin 1024, h (ix2 r k) * u (ix2 g k)

/-- The new memory at row `r`, feature `d`. -/
def cellCAt (x h c w u : Mat) (r : Fin 4096) (d : Fin 1024) : EReal :=
  Ideal.logistic (gate x h w u r (col 2 d)) * c (ix2 r d)
    + Ideal.logistic (gate x h w u r (col 0 d)) * Ideal.tanh (gate x h w u r (col 1 d))

/-- The new hidden state at row `r`, feature `d`. -/
def cellHAt (x h c w u : Mat) (r : Fin 4096) (d : Fin 1024) : EReal :=
  Ideal.logistic (gate x h w u r (col 3 d)) * Ideal.tanh (cellCAt x h c w u r d)

/-- The new memory, as a matrix. -/
def cellC (x h c w u : Mat) : Mat := fun j => cellCAt x h c w u (j 0) (j 1)
/-- The new hidden state, as a matrix. -/
def cellH (x h c w u : Mat) : Mat := fun j => cellHAt x h c w u (j 0) (j 1)

/-- Layer `l` of a stack. -/
def slab (A : Stack) (l : Fin 4) : Mat := fun j => A (ix3 l (j 0) (j 1))

/-- A stack with layer `l` replaced by `M`. -/
def updSlab (A : Stack) (l : Fin 4) (M : Mat) : Stack := fun i =>
  if (i 0).val = l.val then M (ix2 (i 1) (i 2)) else A i

/-- Four matrices stacked. -/
def stack4 (a0 a1 a2 a3 : Mat) : Stack := fun i =>
  if (i 0).val = 0 then a0 (ix2 (i 1) (i 2)) else if (i 0).val = 1 then a1 (ix2 (i 1) (i 2))
  else if (i 0).val = 2 then a2 (ix2 (i 1) (i 2)) else a3 (ix2 (i 1) (i 2))

theorem slab_updSlab_same (A : Stack) (l : Fin 4) (M : Mat) : slab (updSlab A l M) l = M := by
  funext j
  show (if ((ix3 l (j 0) (j 1) : (⟨3, ![4, 4096, 1024]⟩ : Shape).Idx) 0).val = l.val then _ else _) = M j
  rw [if_pos rfl]
  exact congrArg M (eq_ix2 j).symm

/-- Replacing the four layers one after the other, from any start, is the stack of the four replacements. -/
theorem updSlab_four (Z : Stack) (a0 a1 a2 a3 : Mat) :
    updSlab (updSlab (updSlab (updSlab Z 0 a0) 1 a1) 2 a2) 3 a3 = stack4 a0 a1 a2 a3 := by
  funext i
  have hi : (i 0).val < 4 := (i 0).isLt
  unfold updSlab stack4
  by_cases h3 : (i 0).val = 3
  · simp [h3]
  by_cases h2 : (i 0).val = 2
  · simp [h2]
  by_cases h1 : (i 0).val = 1
  · simp [h1]
  have h0 : (i 0).val = 0 := by omega
  simp [h0]

variable (x0 : Mat) (hs cs wx wh : Stack)

/-- The four layers' new hidden states and memories. -/
def hid0 : Mat := cellH x0 (slab hs 0) (slab cs 0) (slab wx 0) (slab wh 0)
def mem0 : Mat := cellC x0 (slab hs 0) (slab cs 0) (slab wx 0) (slab wh 0)
def hid1 : Mat := cellH (hid0 x0 hs cs wx wh) (slab hs 1) (slab cs 1) (slab wx 1) (slab wh 1)
def mem1 : Mat := cellC (hid0 x0 hs cs wx wh) (slab hs 1) (slab cs 1) (slab wx 1) (slab wh 1)
def hid2 : Mat := cellH (hid1 x0 hs cs wx wh) (slab hs 2) (slab cs 2) (slab wx 2) (slab wh 2)
def mem2 : Mat := cellC (hid1 x0 hs cs wx wh) (slab hs 2) (slab cs 2) (slab wx 2) (slab wh 2)
def hid3 : Mat := cellH (hid2 x0 hs cs wx wh) (slab hs 3) (slab cs 3) (slab wx 3) (slab wh 3)
def mem3 : Mat := cellC (hid2 x0 hs cs wx wh) (slab hs 3) (slab cs 3) (slab wx 3) (slab wh 3)

/-- The stacked hidden states and the stacked memories: the two results. -/
def outH : Stack := stack4 (hid0 x0 hs cs wx wh) (hid1 x0 hs cs wx wh) (hid2 x0 hs cs wx wh) (hid3 x0 hs cs wx wh)
def outC : Stack := stack4 (mem0 x0 hs cs wx wh) (mem1 x0 hs cs wx wh) (mem2 x0 hs cs wx wh) (mem3 x0 hs cs wx wh)

end Cert.Lstm

end
-- ==== Proof.LibMatProductT.lean ====
/-
  A matrix product against a right operand stored by rows, into a zero accumulator, read at an entry.

  For operands `[m, k]` and `[n, k]`, both contracted over their columns, entry `(r, c)` of the product is the sum over
  the contracted coordinate `h` of `lhs (r, h) · rhs (c, h)`: row `r` of the left operand against row `c` of the right
  one. The contraction's one-axis index set is re-indexed by its coordinate.
-/
import Idealize.ShloMosaic.Lib.ValueIdx
import Idealize.ShloMosaic.PureOps.Ideal.Laws

noncomputable section

namespace Cert.LibMatProductT

open Idealize.ShloMosaic Idealize.ShloMosaic.ValueIdx

/-- Entry `(r, c)` of `lhs · rhsᵀ` into a zero accumulator is `∑ h, lhs (r, h) · rhs (c, h)`: both operands are
    contracted over their second axis, the result's rows are the left operand's and its columns the right operand's
    rows. -/
theorem matmul_rowsT_zero_apply {m k n : ℕ} {φ₁ φ₂ : FTy}
    (d : DotDims ⟨2, ![m, k]⟩ ⟨2, ![n, k]⟩ ⟨2, ![m, n]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![m, k]⟩ φ₁) (rhs : FVec Ideal ⟨2, ![n, k]⟩ φ₂) (r : Fin m) (c : Fin n) :
    FloatOps.matmul d prec lhs rhs (constant ⟨2, ![m, n]⟩ .f32 0x00000000#32) (ix2 r c)
      = ∑ h : Fin k, lhs (ix2 r h) * rhs (ix2 c h) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])
    | ⟨1, _⟩ =>
      show (d.rhsIdx (ix2 r c) _ 1).val = h.val
      rw [d.rhsIdx_val_of_single hrc]
      exact hval

end Cert.LibMatProductT

end
-- ==== Proof.KernelCell.lean ====
/-
  The kernel body's arithmetic, read at an entry of a block.

  At one grid point the body holds a block of 256 input rows `x`, the matching 256 rows of the previous hidden state `h` and
  memory `c`, and the layer's two whole weight matrices `w`, `u`. It forms the 256 × 4096 gate pre-activations as two
  matrix products into zero accumulators (the rounding of the operands to a shorter format is the identity on the
  extended reals), cuts them into four 256 × 1024 groups, and stores the new hidden state and the new memory. Entry
  `(p, d)` of each stored block is the LSTM cell's formula over row `p` of the block; when the block is rows
  `256·t … 256·t + 255` of whole matrices, that is the cell's formula at row `256·t + p`.
-/
import proofs.«122988_j25082609008752_2_alg».proof.Proof.Gen.KernelIdeal.Skeleton
import proofs.«122988_j25082609008752_2_alg».proof.Proof.Spec
import proofs.«122988_j25082609008752_2_alg».proof.Proof.LibMatProductT
import Idealize.ShloMosaic.Lib.ValueIdx
import Idealize.ShloMosaic.Lib.Pipeline.Value

noncomputable section

namespace Cert.KernelIdeal.Cell

open Cert.KernelIdeal Cert.KernelIdeal.Gen Idealize.ShloMosaic Idealize.ShloMosaic.ValueIdx Cert.Lstm

/-- A block of 256 rows. -/
abbrev Blk : Type := (⟨2, ![256, 1024]⟩ : Shape).Idx → EReal

/-- The gate pre-activation of the block's row `p` at gate column `g`. -/
def bgate (x h : Blk) (w u : Mat) (p : Fin 256) (g : Fin 4096) : EReal :=
  (∑ k : Fin 1024, x (ix2 p k) * w (ix2 g k)) + ∑ k : Fin 1024, h (ix2 p k) * u (ix2 g k)

/-- The new memory at the block's row `p`, feature `d`. -/
def bcellC (x h c : Blk) (w u : Mat) (p : Fin 256) (d : Fin 1024) : EReal :=
  Ideal.logistic (bgate x h w u p (col 2 d)) * c (ix2 p d)
    + Ideal.logistic (bgate x h w u p (col 0 d)) * Ideal.tanh (bgate x h w u p (col 1 d))

/-- The new hidden state at the block's row `p`, feature `d`. -/
def bcellH (x h c : Blk) (w u : Mat) (p : Fin 256) (d : Fin 1024) : EReal :=
  Ideal.logistic (bgate x h w u p (col 3 d)) * Ideal.tanh (bcellC x h c w u p d)

/-- Rows `256·t … 256·t + 255` of a matrix, as a block. -/
def rowsOf (X : Mat) (t : Fin 16) : Blk := fun y => X (ix2 ⟨t.val * 256 + (y 0).val, by have h : (y 0).val < 256 := (y 0).isLt; have := t.isLt; omega⟩ (y 1))

/-- Row `256·t + p`. -/
def rowAt (t : Fin 16) (p : Fin 256) : Fin 4096 := ⟨t.val * 256 + p.val, by have := p.isLt; have := t.isLt; omega⟩

theorem bgate_rowsOf (X H W U : Mat) (t : Fin 16) (p : Fin 256) (g : Fin 4096) :
    bgate (rowsOf X t) (rowsOf H t) W U p g = gate X H W U (rowAt t p) g := rfl

theorem bcellC_rowsOf (X H C W U : Mat) (t : Fin 16) (p : Fin 256) (d : Fin 1024) :
    bcellC (rowsOf X t) (rowsOf H t) (rowsOf C t) W U p d = cellCAt X H C W U (rowAt t p) d := rfl

theorem bcellH_rowsOf (X H C W U : Mat) (t : Fin 16) (p : Fin 256) (d : Fin 1024) :
    bcellH (rowsOf X t) (rowsOf H t) (rowsOf C t) W U p d = cellHAt X H C W U (rowAt t p) d := rfl

/-- The gate pre-activations the body computes, at row `p`, column `g`. -/
theorem pay1_apply (v0 v3 : Vec Ideal S256x1024 .f32) (v6 v8 : Vec Ideal S4096x1024 .bf16) (p : Fin 256) (g : Fin 4096) :
    k0_pay1 (F := Ideal) v0 v3 v6 v8 (ix2 p g) = bgate v0 v3 v6 v8 p g := by
  unfold k0_pay1
  simp only [shapeCast_self]
  show FloatOps.matmul _ none _ _ (constant S256x4096 .f32 0x00000000#32) (ix2 p g)
      + FloatOps.matmul _ none _ _ (constant S256x4096 .f32 0x00000000#32) (ix2 p g) = _
  rw [Cert.LibMatProductT.matmul_rowsT_zero_apply _ none rfl rfl rfl rfl rfl rfl,
    Cert.LibMatProductT.matmul_rowsT_zero_apply _ none rfl rfl rfl rfl rfl rfl]
  rfl

/-- Gate group `q` of the pre-activations: the slice from column `1024·q`, at `(p, d)`, is column `1024·q + d`. -/
theorem group_apply (G : (⟨2, ![256, 4096]⟩ : Shape).Idx → EReal) (q : Fin 4) (off : Fin 2 → Nat)
    (h0 : off 0 = 0) (h1 : off 1 = 1024 * q.val)
    (h : (⟨2, ![256, 4096]⟩ : Shape).Slices off ⟨2, ![256, 1024]⟩) (p : Fin 256) (d : Fin 1024) :
    extractStridedSlice ⟨2, ![256, 1024]⟩ off G h (ix2 p d) = G (ix2 p (col q d)) :=
  extractStridedSlice_apply off G h (ix2 p d) (ix2 p (col q d)) fun a => by
    match a with
    | ⟨0, _⟩ => show p.val = off 0 + p.val; rw [h0, Nat.zero_add]
    | ⟨1, _⟩ => show 1024 * q.val + d.val = off 1 + d.val; rw [h1]

/-- The new memory the body computes, at `(p, d)`. -/
theorem pay2_apply (v0 v3 : Vec Ideal S256x1024 .f32) (v6 v8 : Vec Ideal S4096x1024 .bf16) (v21 : Vec Ideal S256x1024 .f32)
    (p : Fin 256) (d : Fin 1024) :
    k0_pay2 (F := Ideal) v0 v3 v6 v8 v21 (ix2 p d) = bcellC v0 v3 v21 v6 v8 p d := by
  unfold k0_pay2 bcellC
  simp only [shapeCast_self]
  show Ideal.logistic (extractStridedSlice S256x1024 ![0, 2048] (k0_pay1 v0 v3 v6 v8) _ (ix2 p d)) * v21 (ix2 p d)
      + Ideal.logistic (extractStridedSlice S256x1024 ![0, 0] (k0_pay1 v0 v3 v6 v8) _ (ix2 p d))
        * Ideal.tanh (extractStridedSlice S256x1024 ![0, 1024] (k0_pay1 v0 v3 v6 v8) _ (ix2 p d)) = _
  rw [group_apply _ 2 _ rfl rfl, group_apply _ 0 _ rfl rfl, group_apply _ 1 _ rfl rfl, pay1_apply, pay1_apply, pay1_apply]

/-- A 256 × 1024 block recast with a leading unit axis, read at `(q, p, d)`. -/
theorem addUnit_apply (v : (⟨2, ![256, 1024]⟩ : Shape).Idx → EReal)
    (h : (⟨2, ![256, 1024]⟩ : Shape).ShapeCasts ⟨3, ![1, 256, 1024]⟩) (q : Fin 1) (p : Fin 256) (d : Fin 1024) :
    shapeCast ⟨3, ![1, 256, 1024]⟩ v h (ix3 q p d) = v (ix2 p d) :=
  shapeCast_apply v h (ix3 q p d) (ix2 p d) (by
    rw [Shape.rowMajor_val_two, Shape.rowMajor_val_three]
    have := q.isLt
    show p.val * 1024 + d.val = (q.val * 256 + p.val) * 1024 + d.val
    omega)

/-- The stored memory block at `(q, p, d)`. -/
theorem pay4_apply (v0 v3 : Vec Ideal S256x1024 .f32) (v6 v8 : Vec Ideal S4096x1024 .bf16) (v21 : Vec Ideal S256x1024 .f32)
    (q : Fin 1) (p : Fin 256) (d : Fin 1024) :
    k0_pay4 (F := Ideal) v0 v3 v6 v8 v21 (ix3 q p d) = bcellC v0 v3 v21 v6 v8 p d := by
  unfold k0_pay4
  exact (addUnit_apply _ _ q p d).trans (pay2_apply v0 v3 v6 v8 v21 p d)

/-- The stored hidden-state block at `(q, p, d)`. -/
theorem pay3_apply (v0 v3 : Vec Ideal S256x1024 .f32) (v6 v8 : Vec Ideal S4096x1024 .bf16) (v21 : Vec Ideal S256x1024 .f32)
    (q : Fin 1) (p : Fin 256) (d : Fin 1024) :
    k0_pay3 (F := Ideal) v0 v3 v6 v8 v21 (ix3 q p d) = bcellH v0 v3 v21 v6 v8 p d := by
  unfold k0_pay3
  refine (addUnit_apply _ _ q p d).trans ?_
  unfold bcellH
  show Ideal.logistic (extractStridedSlice S256x1024 ![0, 3072] (k0_pay1 v0 v3 v6 v8) _ (ix2 p d))
      * Ideal.tanh (k0_pay2 v0 v3 v6 v8 v21 (ix2 p d)) = _
  rw [group_apply _ 3 _ rfl rfl, pay1_apply, pay2_apply]

/-- The four launches run the same body: the later launches' payloads are the first one's. -/
theorem pay3_1 : @k1_pay3 Ideal _ = @k0_pay3 Ideal _ := rfl
theorem pay4_1 : @k1_pay4 Ideal _ = @k0_pay4 Ideal _ := rfl
theorem pay3_2 : @k2_pay3 Ideal _ = @k0_pay3 Ideal _ := rfl
theorem pay4_2 : @k2_pay4 Ideal _ = @k0_pay4 Ideal _ := rfl
theorem pay3_3 : @k3_pay3 Ideal _ = @k0_pay3 Ideal _ := rfl
theorem pay4_3 : @k3_pay4 Ideal _ = @k0_pay4 Ideal _ := rfl

end Cert.KernelIdeal.Cell

end
-- ==== Proof.Region0.lean ====
/-
  Kernel launch 0 of the program (layer 0 of the stack): what its two output arrays hold when it returns.

  The launch runs the cell body at 16 grid points. Point `t` reads rows `256·t … 256·t + 255` of the layer's input,
  previous hidden state and previous memory, and both weight matrices whole, and writes back one 256 × 1024 block of
  new hidden state and one of new memory into layer 0 of the two stacked output arrays, at the same rows. The blocks of
  the 16 points tile layer 0; the other layers of the output arrays are never written and keep what they held when the
  launch was entered. So each output array ends as its entry contents with layer 0 replaced by the cell's result.
-/
import proofs.«122988_j25082609008752_2_alg».proof.Proof.KernelIdealFrame
import proofs.«122988_j25082609008752_2_alg».proof.Proof.KernelCell
import Idealize.ShloMosaic.Lib.Pipeline.Value

set_option maxRecDepth 16384

noncomputable section

namespace Cert.KernelIdeal.Region0

open Cert.KernelIdeal Cert.KernelIdeal.Gen Cert.KernelIdeal.Cell Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point as a number below 16. -/
def pt (t : Fin cfg0.N) : Fin 16 := ⟨t.val, by have h : t.val < grid0.N := t.isLt; rw [N_0] at h; exact h⟩

/-- The hidden-state block the body leaves in its staging buffer is its stored payload of the blocks it loaded. -/
theorem out5_eq (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out0_A_5 (F := Ideal) c i a1 h1 a2 h2 a3 h3 a4 h4 a5 h5 a8 h8 a9 h9 x0 x1 x2 x3 x4 = k0_pay3 x0 x1 x3 x4 x2 := by
  unfold out0_A_5
  rw [View.read_writes_eq_canon _ _ _ (cover0_A_5 c i a1 h1 a2 h2 a3 h3 a4 h4 a5 h5 a8 h8 a9 h9 x0 x1 x2 x3 x4)]
  unfold kernelRun0_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The memory block the body leaves in its staging buffer is its stored payload of the blocks it loaded. -/
theorem out6_eq (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out0_A_6 (F := Ideal) c i a1 h1 a2 h2 a3 h3 a4 h4 a5 h5 a8 h8 a9 h9 x0 x1 x2 x3 x4 = k0_pay4 x0 x1 x3 x4 x2 := by
  unfold out0_A_6
  rw [View.read_writes_eq_canon _ _ _ (cover0_A_6 c i a1 h1 a2 h2 a3 h3 a4 h4 a5 h5 a8 h8 a9 h9 x0 x1 x2 x3 x4)]
  unfold kernelRun0_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The printed index maps, decided over the grid: the three row windows sit at block row `t`, the two weight windows at
    the origin, the two output windows at layer 0, block row `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0
    ∧ win0_6.index t (0 : Fin 3) = 0 ∧ win0_6.index t (1 : Fin 3) = t.val ∧ win0_6.index t (2 : Fin 3) = 0 :=
  (by decide +kernel : ∀ t : Fin grid0.N, _)

/-- Window 0's block at point `t` is rows `256·t … 256·t + 255` of its array. -/
theorem blk_x (c : Dev nD) (t : Fin cfg0.N) : iblk0 V c 0 t = rowsOf (V c main_v6) (pt t) := by
  obtain ⟨e00, e01, e10, e11, e20, e21, e30, e31, e40, e41, e50, e51, e52, e60, e61, e62⟩ := idx_facts t
  funext y
  show V c main_v6 (((cfg0.win 0).blk t).view.emb y) = V c main_v6 (ix2 _ (y 1))
  refine congrArg (V c main_v6) (funext fun a => Fin.ext ?_)
  match a with
  | ⟨0, _⟩ => show win0_0.index t (0 : Fin 2) * 256 + 1 * (y 0).val = t.val * 256 + (y 0).val; rw [e00]; omega
  | ⟨1, _⟩ => show win0_0.index t (1 : Fin 2) * 1024 + 1 * (y 1).val = (y 1).val; rw [e01]; omega
/-- Window 1's block at point `t` is rows `256·t … 256·t + 255` of its array. -/
theorem blk_h (c : Dev nD) (t : Fin cfg0.N) : iblk0 V c 1 t = rowsOf (V c main_v12) (pt t) := by
  obtain ⟨e00, e01, e10, e11, e20, e21, e30, e31, e40, e41, e50, e51, e52, e60, e61, e62⟩ := idx_facts t
  funext y
  show V c main_v12 (((cfg0.win 1).blk t).view.emb y) = V c main_v12 (ix2 _ (y 1))
  refine congrArg (V c main_v12) (funext fun a => Fin.ext ?_)
  match a with
  | ⟨0, _⟩ => show win0_1.index t (0 : Fin 2) * 256 + 1 * (y 0).val = t.val * 256 + (y 0).val; rw [e10]; omega
  | ⟨1, _⟩ => show win0_1.index t (1 : Fin 2) * 1024 + 1 * (y 1).val = (y 1).val; rw [e11]; omega
/-- Window 2's block at point `t` is rows `256·t … 256·t + 255` of its array. -/
theorem blk_c (c : Dev nD) (t : Fin cfg0.N) : iblk0 V c 2 t = rowsOf (V c main_v14) (pt t) := by
  obtain ⟨e00, e01, e10, e11, e20, e21, e30, e31, e40, e41, e50, e51, e52, e60, e61, e62⟩ := idx_facts t
  funext y
  show V c main_v14 (((cfg0.win 2).blk t).view.emb y) = V c main_v14 (ix2 _ (y 1))
  refine congrArg (V c main_v14) (funext fun a => Fin.ext ?_)
  match a with
  | ⟨0, _⟩ => show win0_2.index t (0 : Fin 2) * 256 + 1 * (y 0).val = t.val * 256 + (y 0).val; rw [e20]; omega
  | ⟨1, _⟩ => show win0_2.index t (1 : Fin 2) * 1024 + 1 * (y 1).val = (y 1).val; rw [e21]; omega
/-- Window 3's block at every point is its whole array. -/
theorem blk_wx (c : Dev nD) (t : Fin cfg0.N) : iblk0 V c 3 t = V c main_v16 := by
  obtain ⟨e00, e01, e10, e11, e20, e21, e30, e31, e40, e41, e50, e51, e52, e60, e61, e62⟩ := idx_facts t
  funext y
  show V c main_v16 (((cfg0.win 3).blk t).view.emb y) = V c main_v16 y
  refine congrArg (V c main_v16) (funext fun a => Fin.ext ?_)
  match a with
  | ⟨0, _⟩ => show win0_3.index t (0 : Fin 2) * 4096 + 1 * (y 0).val = (y 0).val; rw [e30]; omega
  | ⟨1, _⟩ => show win0_3.index t (1 : Fin 2) * 1024 + 1 * (y 1).val = (y 1).val; rw [e31]; omega
/-- Window 4's block at every point is its whole array. -/
theorem blk_wh (c : Dev nD) (t : Fin cfg0.N) : iblk0 V c 4 t = V c main_v18 := by
  obtain ⟨e00, e01, e10, e11, e20, e21, e30, e31, e40, e41, e50, e51, e52, e60, e61, e62⟩ := idx_facts t
  funext y
  show V c main_v18 (((cfg0.win 4).blk t).view.emb y) = V c main_v18 y
  refine congrArg (V c main_v18) (funext fun a => Fin.ext ?_)
  match a with
  | ⟨0, _⟩ => show win0_4.index t (0 : Fin 2) * 4096 + 1 * (y 0).val = (y 0).val; rw [e40]; omega
  | ⟨1, _⟩ => show win0_4.index t (1 : Fin 2) * 1024 + 1 * (y 1).val = (y 1).val; rw [e41]; omega

/-- What point `t` writes back through output window 5 is block `t` of the hidden-state array with layer 0 replaced by the cell's result. -/
theorem hid_flushed (c : Dev nD) (t : Fin cfg0.N) :
    (dat0 V c).flushed 5 t = ((cfg0.win 5).blk t).view.read (Elt Ideal)
      (updSlab (V c main_v19_0) 0 (cellH (V c main_v6) (V c main_v12) (V c main_v14) (V c main_v16) (V c main_v18))) := by
  show (cfg0.win 5).cut (grid0.coords t) ((dat0 V c).after 5 t) = _
  rw [after0_5]
  unfold outsAt0
  dsimp only
  rw [out5_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg0.win 5).blk t).view.emb (ix3 q r d)) 0).val = (0 : Fin 4).val := by
    show win0_5.index t (0 : Fin 3) * 1 + 1 * q.val = 0; rw [e50, hq]
  have hi1 : (((cfg0.win 5).blk t).view.emb (ix3 q r d)) 1 = rowAt (pt t) r := Fin.ext (by
    show win0_5.index t (1 : Fin 3) * 256 + 1 * r.val = t.val * 256 + r.val; rw [e51]; omega)
  have hi2 : (((cfg0.win 5).blk t).view.emb (ix3 q r d)) 2 = d := Fin.ext (by
    show win0_5.index t (2 : Fin 3) * 1024 + 1 * d.val = d.val; rw [e52]; omega)
  show k0_pay3 (F := Ideal) _ _ _ _ _ (ix3 q r d) = updSlab _ _ _ (((cfg0.win 5).blk t).view.emb (ix3 q r d))
  rw [pay3_apply, bcellH_rowsOf]
  unfold updSlab
  rw [if_pos hi0]
  show _ = cellHAt _ _ _ _ _ ((((cfg0.win 5).blk t).view.emb (ix3 q r d)) 1) ((((cfg0.win 5).blk t).view.emb (ix3 q r d)) 2)
  rw [hi1, hi2]

/-- An index of the hidden-state array is in point `t`'s block iff each coordinate is in the block's range on its axis. -/
theorem hid_mem_blk (t : Fin cfg0.N) (i : S4x4096x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v19_0).slice (win0_5.rect t)).set ↔ _
  rw [View.set_slice_whole, Rect.mem_set_unit]
  exact Iff.rfl

/-- The indices some point's block covers are exactly those of layer 0. -/
theorem hid_covered_iff (i : S4x4096x1024.Idx) :
    (∃ t : Fin cfg0.N, (cfg0.win 5).flush t = true ∧ i ∈ ((cfg0.win 5).blk t).view.set) ↔ (i 0).val = (0 : Fin 4).val := by
  constructor
  · rintro ⟨t, -, hi⟩
    rw [hid_mem_blk] at hi
    have b0 : win0_5.index t (0 : Fin 3) * 1 ≤ (i 0).val ∧ (i 0).val < win0_5.index t (0 : Fin 3) * 1 + 1 := hi 0
    obtain ⟨e00, e01, e10, e11, e20, e21, e30, e31, e40, e41, e50, e51, e52, e60, e61, e62⟩ := idx_facts t
    show (i 0).val = 0
    omega
  · intro h
    have h' : (i 0).val = 0 := h
    have hi1 : (i 1).val < 4096 := (i 1).isLt
    have hi2 : (i 2).val < 1024 := (i 2).isLt
    have hN : (i 1).val / 256 < cfg0.N := by show (i 1).val / 256 < grid0.N; rw [N_0]; omega
    refine ⟨⟨(i 1).val / 256, hN⟩, flush0_5 _, ?_⟩
    rw [hid_mem_blk]
    obtain ⟨e00, e01, e10, e11, e20, e21, e30, e31, e40, e41, e50, e51, e52, e60, e61, e62⟩ := idx_facts ⟨(i 1).val / 256, hN⟩
    intro a
    match a with
    | ⟨0, _⟩ => show win0_5.index _ (0 : Fin 3) * 1 ≤ (i 0).val ∧ (i 0).val < win0_5.index _ (0 : Fin 3) * 1 + 1; rw [e50]; omega
    | ⟨1, _⟩ => show win0_5.index _ (1 : Fin 3) * 256 ≤ (i 1).val ∧ (i 1).val < win0_5.index _ (1 : Fin 3) * 256 + 256; rw [e51]; show (i 1).val / 256 * 256 ≤ (i 1).val ∧ (i 1).val < (i 1).val / 256 * 256 + 256; omega
    | ⟨2, _⟩ => show win0_5.index _ (2 : Fin 3) * 1024 ≤ (i 2).val ∧ (i 2).val < win0_5.index _ (2 : Fin 3) * 1024 + 1024; rw [e52]; omega

/-- The hidden-state array when the launch returns: its entry contents with layer 0 replaced by the cell's result. -/
theorem hid_final (c : Dev nD) :
    (dat0 V c).arrAt 5 cfg0.N = updSlab (V c main_v19_0) 0 (cellH (V c main_v6) (V c main_v12) (V c main_v14) (V c main_v16) (V c main_v18)) := by
  funext i
  rw [(dat0 V c).arrAt_eq_piecewise 5 _ (fun t _ => hid_flushed V c t) i, A_eq0]
  by_cases h : (i 0).val = (0 : Fin 4).val
  · rw [if_pos ((hid_covered_iff i).mpr h)]
  · rw [if_neg (fun hc => h ((hid_covered_iff i).mp hc))]
    show V c main_v19_0 i = updSlab (V c main_v19_0) 0 _ i
    unfold updSlab
    rw [if_neg h]

/-- What point `t` writes back through output window 6 is block `t` of the memory array with layer 0 replaced by the cell's result. -/
theorem mem_flushed (c : Dev nD) (t : Fin cfg0.N) :
    (dat0 V c).flushed 6 t = ((cfg0.win 6).blk t).view.read (Elt Ideal)
      (updSlab (V c main_v19_1) 0 (cellC (V c main_v6) (V c main_v12) (V c main_v14) (V c main_v16) (V c main_v18))) := by
  show (cfg0.win 6).cut (grid0.coords t) ((dat0 V c).after 6 t) = _
  rw [after0_6]
  unfold outsAt0
  dsimp only
  rw [out6_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg0.win 6).blk t).view.emb (ix3 q r d)) 0).val = (0 : Fin 4).val := by
    show win0_6.index t (0 : Fin 3) * 1 + 1 * q.val = 0; rw [e60, hq]
  have hi1 : (((cfg0.win 6).blk t).view.emb (ix3 q r d)) 1 = rowAt (pt t) r := Fin.ext (by
    show win0_6.index t (1 : Fin 3) * 256 + 1 * r.val = t.val * 256 + r.val; rw [e61]; omega)
  have hi2 : (((cfg0.win 6).blk t).view.emb (ix3 q r d)) 2 = d := Fin.ext (by
    show win0_6.index t (2 : Fin 3) * 1024 + 1 * d.val = d.val; rw [e62]; omega)
  show k0_pay4 (F := Ideal) _ _ _ _ _ (ix3 q r d) = updSlab _ _ _ (((cfg0.win 6).blk t).view.emb (ix3 q r d))
  rw [pay4_apply, bcellC_rowsOf]
  unfold updSlab
  rw [if_pos hi0]
  show _ = cellCAt _ _ _ _ _ ((((cfg0.win 6).blk t).view.emb (ix3 q r d)) 1) ((((cfg0.win 6).blk t).view.emb (ix3 q r d)) 2)
  rw [hi1, hi2]

/-- An index of the memory array is in point `t`'s block iff each coordinate is in the block's range on its axis. -/
theorem mem_mem_blk (t : Fin cfg0.N) (i : S4x4096x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v19_1).slice (win0_6.rect t)).set ↔ _
  rw [View.set_slice_whole, Rect.mem_set_unit]
  exact Iff.rfl

/-- The indices some point's block covers are exactly those of layer 0. -/
theorem mem_covered_iff (i : S4x4096x1024.Idx) :
    (∃ t : Fin cfg0.N, (cfg0.win 6).flush t = true ∧ i ∈ ((cfg0.win 6).blk t).view.set) ↔ (i 0).val = (0 : Fin 4).val := by
  constructor
  · rintro ⟨t, -, hi⟩
    rw [mem_mem_blk] at hi
    have b0 : win0_6.index t (0 : Fin 3) * 1 ≤ (i 0).val ∧ (i 0).val < win0_6.index t (0 : Fin 3) * 1 + 1 := hi 0
    obtain ⟨e00, e01, e10, e11, e20, e21, e30, e31, e40, e41, e50, e51, e52, e60, e61, e62⟩ := idx_facts t
    show (i 0).val = 0
    omega
  · intro h
    have h' : (i 0).val = 0 := h
    have hi1 : (i 1).val < 4096 := (i 1).isLt
    have hi2 : (i 2).val < 1024 := (i 2).isLt
    have hN : (i 1).val / 256 < cfg0.N := by show (i 1).val / 256 < grid0.N; rw [N_0]; omega
    refine ⟨⟨(i 1).val / 256, hN⟩, flush0_6 _, ?_⟩
    rw [mem_mem_blk]
    obtain ⟨e00, e01, e10, e11, e20, e21, e30, e31, e40, e41, e50, e51, e52, e60, e61, e62⟩ := idx_facts ⟨(i 1).val / 256, hN⟩
    intro a
    match a with
    | ⟨0, _⟩ => show win0_6.index _ (0 : Fin 3) * 1 ≤ (i 0).val ∧ (i 0).val < win0_6.index _ (0 : Fin 3) * 1 + 1; rw [e60]; omega
    | ⟨1, _⟩ => show win0_6.index _ (1 : Fin 3) * 256 ≤ (i 1).val ∧ (i 1).val < win0_6.index _ (1 : Fin 3) * 256 + 256; rw [e61]; show (i 1).val / 256 * 256 ≤ (i 1).val ∧ (i 1).val < (i 1).val / 256 * 256 + 256; omega
    | ⟨2, _⟩ => show win0_6.index _ (2 : Fin 3) * 1024 ≤ (i 2).val ∧ (i 2).val < win0_6.index _ (2 : Fin 3) * 1024 + 1024; rw [e62]; omega

/-- The memory array when the launch returns: its entry contents with layer 0 replaced by the cell's result. -/
theorem mem_final (c : Dev nD) :
    (dat0 V c).arrAt 6 cfg0.N = updSlab (V c main_v19_1) 0 (cellC (V c main_v6) (V c main_v12) (V c main_v14) (V c main_v16) (V c main_v18)) := by
  funext i
  rw [(dat0 V c).arrAt_eq_piecewise 6 _ (fun t _ => mem_flushed V c t) i, A_eq0]
  by_cases h : (i 0).val = (0 : Fin 4).val
  · rw [if_pos ((mem_covered_iff i).mpr h)]
  · rw [if_neg (fun hc => h ((mem_covered_iff i).mp hc))]
    show V c main_v19_1 i = updSlab (V c main_v19_1) 0 _ i
    unfold updSlab
    rw [if_neg h]

end Cert.KernelIdeal.Region0

end
-- ==== Proof.Region1.lean ====
/-
  Kernel launch 1 of the program (layer 1 of the stack): what its two output arrays hold when it returns.

  The launch runs the cell body at 16 grid points. Point `t` reads rows `256·t … 256·t + 255` of the layer's input,
  previous hidden state and previous memory, and both weight matrices whole, and writes back one 256 × 1024 block of
  new hidden state and one of new memory into layer 1 of the two stacked output arrays, at the same rows. The blocks of
  the 16 points tile layer 1; the other layers of the output arrays are never written and keep what they held when the
  launch was entered. So each output array ends as its entry contents with layer 1 replaced by the cell's result.
-/
import proofs.«122988_j25082609008752_2_alg».proof.Proof.KernelIdealFrame
import proofs.«122988_j25082609008752_2_alg».proof.Proof.KernelCell
import Idealize.ShloMosaic.Lib.Pipeline.Value

set_option maxRecDepth 16384

noncomputable section

namespace Cert.KernelIdeal.Region1

open Cert.KernelIdeal Cert.KernelIdeal.Gen Cert.KernelIdeal.Cell Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point as a number below 16. -/
def pt (t : Fin cfg1.N) : Fin 16 := ⟨t.val, by have h : t.val < grid1.N := t.isLt; rw [N_1] at h; exact h⟩

/-- The hidden-state block the body leaves in its staging buffer is its stored payload of the blocks it loaded. -/
theorem out5_eq (c : Dev nD) (i : grid1.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out1_A_5 (F := Ideal) c i a1 h1 a2 h2 a3 h3 a4 h4 a5 h5 a8 h8 a9 h9 x0 x1 x2 x3 x4 = k1_pay3 x0 x1 x3 x4 x2 := by
  unfold out1_A_5
  rw [View.read_writes_eq_canon _ _ _ (cover1_A_5 c i a1 h1 a2 h2 a3 h3 a4 h4 a5 h5 a8 h8 a9 h9 x0 x1 x2 x3 x4)]
  unfold kernelRun1_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The memory block the body leaves in its staging buffer is its stored payload of the blocks it loaded. -/
theorem out6_eq (c : Dev nD) (i : grid1.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out1_A_6 (F := Ideal) c i a1 h1 a2 h2 a3 h3 a4 h4 a5 h5 a8 h8 a9 h9 x0 x1 x2 x3 x4 = k1_pay4 x0 x1 x3 x4 x2 := by
  unfold out1_A_6
  rw [View.read_writes_eq_canon _ _ _ (cover1_A_6 c i a1 h1 a2 h2 a3 h3 a4 h4 a5 h5 a8 h8 a9 h9 x0 x1 x2 x3 x4)]
  unfold kernelRun1_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The printed index maps, decided over the grid: the three row windows sit at block row `t`, the two weight windows at
    the origin, the two output windows at layer 1, block row `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = 1 ∧ win1_5.index t (1 : Fin 3) = t.val ∧ win1_5.index t (2 : Fin 3) = 0
    ∧ win1_6.index t (0 : Fin 3) = 1 ∧ win1_6.index t (1 : Fin 3) = t.val ∧ win1_6.index t (2 : Fin 3) = 0 :=
  (by decide +kernel : ∀ t : Fin grid1.N, _)

/-- Window 0's block at point `t` is rows `256·t … 256·t + 255` of its array. -/
theorem blk_x (c : Dev nD) (t : Fin cfg1.N) : iblk1 V c 0 t = rowsOf (V c main_v21) (pt t) := by
  obtain ⟨e00, e01, e10, e11, e20, e21, e30, e31, e40, e41, e50, e51, e52, e60, e61, e62⟩ := idx_facts t
  funext y
  show V c main_v21 (((cfg1.win 0).blk t).view.emb y) = V c main_v21 (ix2 _ (y 1))
  refine congrArg (V c main_v21) (funext fun a => Fin.ext ?_)
  match a with
  | ⟨0, _⟩ => show win1_0.index t (0 : Fin 2) * 256 + 1 * (y 0).val = t.val * 256 + (y 0).val; rw [e00]; omega
  | ⟨1, _⟩ => show win1_0.index t (1 : Fin 2) * 1024 + 1 * (y 1).val = (y 1).val; rw [e01]; omega
/-- Window 1's block at point `t` is rows `256·t … 256·t + 255` of its array. -/
theorem blk_h (c : Dev nD) (t : Fin cfg1.N) : iblk1 V c 1 t = rowsOf (V c main_v23) (pt t) := by
  obtain ⟨e00, e01, e10, e11, e20, e21, e30, e31, e40, e41, e50, e51, e52, e60, e61, e62⟩ := idx_facts t
  funext y
  show V c main_v23 (((cfg1.win 1).blk t).view.emb y) = V c main_v23 (ix2 _ (y 1))
  refine congrArg (V c main_v23) (funext fun a => Fin.ext ?_)
  match a with
  | ⟨0, _⟩ => show win1_1.index t (0 : Fin 2) * 256 + 1 * (y 0).val = t.val * 256 + (y 0).val; rw [e10]; omega
  | ⟨1, _⟩ => show win1_1.index t (1 : Fin 2) * 1024 + 1 * (y 1).val = (y 1).val; rw [e11]; omega
/-- Window 2's block at point `t` is rows `256·t … 256·t + 255` of its array. -/
theorem blk_c (c : Dev nD) (t : Fin cfg1.N) : iblk1 V c 2 t = rowsOf (V c main_v25) (pt t) := by
  obtain ⟨e00, e01, e10, e11, e20, e21, e30, e31, e40, e41, e50, e51, e52, e60, e61, e62⟩ := idx_facts t
  funext y
  show V c main_v25 (((cfg1.win 2).blk t).view.emb y) = V c main_v25 (ix2 _ (y 1))
  refine congrArg (V c main_v25) (funext fun a => Fin.ext ?_)
  match a with
  | ⟨0, _⟩ => show win1_2.index t (0 : Fin 2) * 256 + 1 * (y 0).val = t.val * 256 + (y 0).val; rw [e20]; omega
  | ⟨1, _⟩ => show win1_2.index t (1 : Fin 2) * 1024 + 1 * (y 1).val = (y 1).val; rw [e21]; omega
/-- Window 3's block at every point is its whole array. -/
theorem blk_wx (c : Dev nD) (t : Fin cfg1.N) : iblk1 V c 3 t = V c main_v27 := by
  obtain ⟨e00, e01, e10, e11, e20, e21, e30, e31, e40, e41, e50, e51, e52, e60, e61, e62⟩ := idx_facts t
  funext y
  show V c main_v27 (((cfg1.win 3).blk t).view.emb y) = V c main_v27 y
  refine congrArg (V c main_v27) (funext fun a => Fin.ext ?_)
  match a with
  | ⟨0, _⟩ => show win1_3.index t (0 : Fin 2) * 4096 + 1 * (y 0).val = (y 0).val; rw [e30]; omega
  | ⟨1, _⟩ => show win1_3.index t (1 : Fin 2) * 1024 + 1 * (y 1).val = (y 1).val; rw [e31]; omega
/-- Window 4's block at every point is its whole array. -/
theorem blk_wh (c : Dev nD) (t : Fin cfg1.N) : iblk1 V c 4 t = V c main_v29 := by
  obtain ⟨e00, e01, e10, e11, e20, e21, e30, e31, e40, e41, e50, e51, e52, e60, e61, e62⟩ := idx_facts t
  funext y
  show V c main_v29 (((cfg1.win 4).blk t).view.emb y) = V c main_v29 y
  refine congrArg (V c main_v29) (funext fun a => Fin.ext ?_)
  match a with
  | ⟨0, _⟩ => show win1_4.index t (0 : Fin 2) * 4096 + 1 * (y 0).val = (y 0).val; rw [e40]; omega
  | ⟨1, _⟩ => show win1_4.index t (1 : Fin 2) * 1024 + 1 * (y 1).val = (y 1).val; rw [e41]; omega

/-- What point `t` writes back through output window 5 is block `t` of the hidden-state array with layer 1 replaced by the cell's result. -/
theorem hid_flushed (c : Dev nD) (t : Fin cfg1.N) :
    (dat1 V c).flushed 5 t = ((cfg1.win 5).blk t).view.read (Elt Ideal)
      (updSlab (V c main_v30_0) 1 (cellH (V c main_v21) (V c main_v23) (V c main_v25) (V c main_v27) (V c main_v29))) := by
  show (cfg1.win 5).cut (grid1.coords t) ((dat1 V c).after 5 t) = _
  rw [after1_5]
  unfold outsAt1
  dsimp only
  rw [out5_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg1.win 5).blk t).view.emb (ix3 q r d)) 0).val = (1 : Fin 4).val := by
    show win1_5.index t (0 : Fin 3) * 1 + 1 * q.val = 1; rw [e50, hq]
  have hi1 : (((cfg1.win 5).blk t).view.emb (ix3 q r d)) 1 = rowAt (pt t) r := Fin.ext (by
    show win1_5.index t (1 : Fin 3) * 256 + 1 * r.val = t.val * 256 + r.val; rw [e51]; omega)
  have hi2 : (((cfg1.win 5).blk t).view.emb (ix3 q r d)) 2 = d := Fin.ext (by
    show win1_5.index t (2 : Fin 3) * 1024 + 1 * d.val = d.val; rw [e52]; omega)
  show k1_pay3 (F := Ideal) _ _ _ _ _ (ix3 q r d) = updSlab _ _ _ (((cfg1.win 5).blk t).view.emb (ix3 q r d))
  rw [pay3_1, pay3_apply, bcellH_rowsOf]
  unfold updSlab
  rw [if_pos hi0]
  show _ = cellHAt _ _ _ _ _ ((((cfg1.win 5).blk t).view.emb (ix3 q r d)) 1) ((((cfg1.win 5).blk t).view.emb (ix3 q r d)) 2)
  rw [hi1, hi2]

/-- An index of the hidden-state array is in point `t`'s block iff each coordinate is in the block's range on its axis. -/
theorem hid_mem_blk (t : Fin cfg1.N) (i : S4x4096x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v30_0).slice (win1_5.rect t)).set ↔ _
  rw [View.set_slice_whole, Rect.mem_set_unit]
  exact Iff.rfl

/-- The indices some point's block covers are exactly those of layer 1. -/
theorem hid_covered_iff (i : S4x4096x1024.Idx) :
    (∃ t : Fin cfg1.N, (cfg1.win 5).flush t = true ∧ i ∈ ((cfg1.win 5).blk t).view.set) ↔ (i 0).val = (1 : Fin 4).val := by
  constructor
  · rintro ⟨t, -, hi⟩
    rw [hid_mem_blk] at hi
    have b0 : win1_5.index t (0 : Fin 3) * 1 ≤ (i 0).val ∧ (i 0).val < win1_5.index t (0 : Fin 3) * 1 + 1 := hi 0
    obtain ⟨e00, e01, e10, e11, e20, e21, e30, e31, e40, e41, e50, e51, e52, e60, e61, e62⟩ := idx_facts t
    show (i 0).val = 1
    omega
  · intro h
    have h' : (i 0).val = 1 := h
    have hi1 : (i 1).val < 4096 := (i 1).isLt
    have hi2 : (i 2).val < 1024 := (i 2).isLt
    have hN : (i 1).val / 256 < cfg1.N := by show (i 1).val / 256 < grid1.N; rw [N_1]; omega
    refine ⟨⟨(i 1).val / 256, hN⟩, flush1_5 _, ?_⟩
    rw [hid_mem_blk]
    obtain ⟨e00, e01, e10, e11, e20, e21, e30, e31, e40, e41, e50, e51, e52, e60, e61, e62⟩ := idx_facts ⟨(i 1).val / 256, hN⟩
    intro a
    match a with
    | ⟨0, _⟩ => show win1_5.index _ (0 : Fin 3) * 1 ≤ (i 0).val ∧ (i 0).val < win1_5.index _ (0 : Fin 3) * 1 + 1; rw [e50]; omega
    | ⟨1, _⟩ => show win1_5.index _ (1 : Fin 3) * 256 ≤ (i 1).val ∧ (i 1).val < win1_5.index _ (1 : Fin 3) * 256 + 256; rw [e51]; show (i 1).val / 256 * 256 ≤ (i 1).val ∧ (i 1).val < (i 1).val / 256 * 256 + 256; omega
    | ⟨2, _⟩ => show win1_5.index _ (2 : Fin 3) * 1024 ≤ (i 2).val ∧ (i 2).val < win1_5.index _ (2 : Fin 3) * 1024 + 1024; rw [e52]; omega

/-- The hidden-state array when the launch returns: its entry contents with layer 1 replaced by the cell's result. -/
theorem hid_final (c : Dev nD) :
    (dat1 V c).arrAt 5 cfg1.N = updSlab (V c main_v30_0) 1 (cellH (V c main_v21) (V c main_v23) (V c main_v25) (V c main_v27) (V c main_v29)) := by
  funext i
  rw [(dat1 V c).arrAt_eq_piecewise 5 _ (fun t _ => hid_flushed V c t) i, A_eq1]
  by_cases h : (i 0).val = (1 : Fin 4).val
  · rw [if_pos ((hid_covered_iff i).mpr h)]
  · rw [if_neg (fun hc => h ((hid_covered_iff i).mp hc))]
    show V c main_v30_0 i = updSlab (V c main_v30_0) 1 _ i
    unfold updSlab
    rw [if_neg h]

/-- What point `t` writes back through output window 6 is block `t` of the memory array with layer 1 replaced by the cell's result. -/
theorem mem_flushed (c : Dev nD) (t : Fin cfg1.N) :
    (dat1 V c).flushed 6 t = ((cfg1.win 6).blk t).view.read (Elt Ideal)
      (updSlab (V c main_v30_1) 1 (cellC (V c main_v21) (V c main_v23) (V c main_v25) (V c main_v27) (V c main_v29))) := by
  show (cfg1.win 6).cut (grid1.coords t) ((dat1 V c).after 6 t) = _
  rw [after1_6]
  unfold outsAt1
  dsimp only
  rw [out6_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg1.win 6).blk t).view.emb (ix3 q r d)) 0).val = (1 : Fin 4).val := by
    show win1_6.index t (0 : Fin 3) * 1 + 1 * q.val = 1; rw [e60, hq]
  have hi1 : (((cfg1.win 6).blk t).view.emb (ix3 q r d)) 1 = rowAt (pt t) r := Fin.ext (by
    show win1_6.index t (1 : Fin 3) * 256 + 1 * r.val = t.val * 256 + r.val; rw [e61]; omega)
  have hi2 : (((cfg1.win 6).blk t).view.emb (ix3 q r d)) 2 = d := Fin.ext (by
    show win1_6.index t (2 : Fin 3) * 1024 + 1 * d.val = d.val; rw [e62]; omega)
  show k1_pay4 (F := Ideal) _ _ _ _ _ (ix3 q r d) = updSlab _ _ _ (((cfg1.win 6).blk t).view.emb (ix3 q r d))
  rw [pay4_1, pay4_apply, bcellC_rowsOf]
  unfold updSlab
  rw [if_pos hi0]
  show _ = cellCAt _ _ _ _ _ ((((cfg1.win 6).blk t).view.emb (ix3 q r d)) 1) ((((cfg1.win 6).blk t).view.emb (ix3 q r d)) 2)
  rw [hi1, hi2]

/-- An index of the memory array is in point `t`'s block iff each coordinate is in the block's range on its axis. -/
theorem mem_mem_blk (t : Fin cfg1.N) (i : S4x4096x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v30_1).slice (win1_6.rect t)).set ↔ _
  rw [View.set_slice_whole, Rect.mem_set_unit]
  exact Iff.rfl

/-- The indices some point's block covers are exactly those of layer 1. -/
theorem mem_covered_iff (i : S4x4096x1024.Idx) :
    (∃ t : Fin cfg1.N, (cfg1.win 6).flush t = true ∧ i ∈ ((cfg1.win 6).blk t).view.set) ↔ (i 0).val = (1 : Fin 4).val := by
  constructor
  · rintro ⟨t, -, hi⟩
    rw [mem_mem_blk] at hi
    have b0 : win1_6.index t (0 : Fin 3) * 1 ≤ (i 0).val ∧ (i 0).val < win1_6.index t (0 : Fin 3) * 1 + 1 := hi 0
    obtain ⟨e00, e01, e10, e11, e20, e21, e30, e31, e40, e41, e50, e51, e52, e60, e61, e62⟩ := idx_facts t
    show (i 0).val = 1
    omega
  · intro h
    have h' : (i 0).val = 1 := h
    have hi1 : (i 1).val < 4096 := (i 1).isLt
    have hi2 : (i 2).val < 1024 := (i 2).isLt
    have hN : (i 1).val / 256 < cfg1.N := by show (i 1).val / 256 < grid1.N; rw [N_1]; omega
    refine ⟨⟨(i 1).val / 256, hN⟩, flush1_6 _, ?_⟩
    rw [mem_mem_blk]
    obtain ⟨e00, e01, e10, e11, e20, e21, e30, e31, e40, e41, e50, e51, e52, e60, e61, e62⟩ := idx_facts ⟨(i 1).val / 256, hN⟩
    intro a
    match a with
    | ⟨0, _⟩ => show win1_6.index _ (0 : Fin 3) * 1 ≤ (i 0).val ∧ (i 0).val < win1_6.index _ (0 : Fin 3) * 1 + 1; rw [e60]; omega
    | ⟨1, _⟩ => show win1_6.index _ (1 : Fin 3) * 256 ≤ (i 1).val ∧ (i 1).val < win1_6.index _ (1 : Fin 3) * 256 + 256; rw [e61]; show (i 1).val / 256 * 256 ≤ (i 1).val ∧ (i 1).val < (i 1).val / 256 * 256 + 256; omega
    | ⟨2, _⟩ => show win1_6.index _ (2 : Fin 3) * 1024 ≤ (i 2).val ∧ (i 2).val < win1_6.index _ (2 : Fin 3) * 1024 + 1024; rw [e62]; omega

/-- The memory array when the launch returns: its entry contents with layer 1 replaced by the cell's result. -/
theorem mem_final (c : Dev nD) :
    (dat1 V c).arrAt 6 cfg1.N = updSlab (V c main_v30_1) 1 (cellC (V c main_v21) (V c main_v23) (V c main_v25) (V c main_v27) (V c main_v29)) := by
  funext i
  rw [(dat1 V c).arrAt_eq_piecewise 6 _ (fun t _ => mem_flushed V c t) i, A_eq1]
  by_cases h : (i 0).val = (1 : Fin 4).val
  · rw [if_pos ((mem_covered_iff i).mpr h)]
  · rw [if_neg (fun hc => h ((mem_covered_iff i).mp hc))]
    show V c main_v30_1 i = updSlab (V c main_v30_1) 1 _ i
    unfold updSlab
    rw [if_neg h]

end Cert.KernelIdeal.Region1

end
-- ==== Proof.Region2.lean ====
/-
  Kernel launch 2 of the program (layer 2 of the stack): what its two output arrays hold when it returns.

  The launch runs the cell body at 16 grid points. Point `t` reads rows `256·t … 256·t + 255` of the layer's input,
  previous hidden state and previous memory, and both weight matrices whole, and writes back one 256 × 1024 block of
  new hidden state and one of new memory into layer 2 of the two stacked output arrays, at the same rows. The blocks of
  the 16 points tile layer 2; the other layers of the output arrays are never written and keep what they held when the
  launch was entered. So each output array ends as its entry contents with layer 2 replaced by the cell's result.
-/
import proofs.«122988_j25082609008752_2_alg».proof.Proof.KernelIdealFrame
import proofs.«122988_j25082609008752_2_alg».proof.Proof.KernelCell
import Idealize.ShloMosaic.Lib.Pipeline.Value

set_option maxRecDepth 16384

noncomputable section

namespace Cert.KernelIdeal.Region2

open Cert.KernelIdeal Cert.KernelIdeal.Gen Cert.KernelIdeal.Cell Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point as a number below 16. -/
def pt (t : Fin cfg2.N) : Fin 16 := ⟨t.val, by have h : t.val < grid2.N := t.isLt; rw [N_2] at h; exact h⟩

/-- The hidden-state block the body leaves in its staging buffer is its stored payload of the blocks it loaded. -/
theorem out5_eq (c : Dev nD) (i : grid2.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out2_A_5 (F := Ideal) c i a1 h1 a2 h2 a3 h3 a4 h4 a5 h5 a8 h8 a9 h9 x0 x1 x2 x3 x4 = k2_pay3 x0 x1 x3 x4 x2 := by
  unfold out2_A_5
  rw [View.read_writes_eq_canon _ _ _ (cover2_A_5 c i a1 h1 a2 h2 a3 h3 a4 h4 a5 h5 a8 h8 a9 h9 x0 x1 x2 x3 x4)]
  unfold kernelRun2_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The memory block the body leaves in its staging buffer is its stored payload of the blocks it loaded. -/
theorem out6_eq (c : Dev nD) (i : grid2.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out2_A_6 (F := Ideal) c i a1 h1 a2 h2 a3 h3 a4 h4 a5 h5 a8 h8 a9 h9 x0 x1 x2 x3 x4 = k2_pay4 x0 x1 x3 x4 x2 := by
  unfold out2_A_6
  rw [View.read_writes_eq_canon _ _ _ (cover2_A_6 c i a1 h1 a2 h2 a3 h3 a4 h4 a5 h5 a8 h8 a9 h9 x0 x1 x2 x3 x4)]
  unfold kernelRun2_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The printed index maps, decided over the grid: the three row windows sit at block row `t`, the two weight windows at
    the origin, the two output windows at layer 2, block row `t`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = 2 ∧ win2_5.index t (1 : Fin 3) = t.val ∧ win2_5.index t (2 : Fin 3) = 0
    ∧ win2_6.index t (0 : Fin 3) = 2 ∧ win2_6.index t (1 : Fin 3) = t.val ∧ win2_6.index t (2 : Fin 3) = 0 :=
  (by decide +kernel : ∀ t : Fin grid2.N, _)

/-- Window 0's block at point `t` is rows `256·t … 256·t + 255` of its array. -/
theorem blk_x (c : Dev nD) (t : Fin cfg2.N) : iblk2 V c 0 t = rowsOf (V c main_v32) (pt t) := by
  obtain ⟨e00, e01, e10, e11, e20, e21, e30, e31, e40, e41, e50, e51, e52, e60, e61, e62⟩ := idx_facts t
  funext y
  show V c main_v32 (((cfg2.win 0).blk t).view.emb y) = V c main_v32 (ix2 _ (y 1))
  refine congrArg (V c main_v32) (funext fun a => Fin.ext ?_)
  match a with
  | ⟨0, _⟩ => show win2_0.index t (0 : Fin 2) * 256 + 1 * (y 0).val = t.val * 256 + (y 0).val; rw [e00]; omega
  | ⟨1, _⟩ => show win2_0.index t (1 : Fin 2) * 1024 + 1 * (y 1).val = (y 1).val; rw [e01]; omega
/-- Window 1's block at point `t` is rows `256·t … 256·t + 255` of its array. -/
theorem blk_h (c : Dev nD) (t : Fin cfg2.N) : iblk2 V c 1 t = rowsOf (V c main_v34) (pt t) := by
  obtain ⟨e00, e01, e10, e11, e20, e21, e30, e31, e40, e41, e50, e51, e52, e60, e61, e62⟩ := idx_facts t
  funext y
  show V c main_v34 (((cfg2.win 1).blk t).view.emb y) = V c main_v34 (ix2 _ (y 1))
  refine congrArg (V c main_v34) (funext fun a => Fin.ext ?_)
  match a with
  | ⟨0, _⟩ => show win2_1.index t (0 : Fin 2) * 256 + 1 * (y 0).val = t.val * 256 + (y 0).val; rw [e10]; omega
  | ⟨1, _⟩ => show win2_1.index t (1 : Fin 2) * 1024 + 1 * (y 1).val = (y 1).val; rw [e11]; omega
/-- Window 2's block at point `t` is rows `256·t … 256·t + 255` of its array. -/
theorem blk_c (c : Dev nD) (t : Fin cfg2.N) : iblk2 V c 2 t = rowsOf (V c main_v36) (pt t) := by
  obtain ⟨e00, e01, e10, e11, e20, e21, e30, e31, e40, e41, e50, e51, e52, e60, e61, e62⟩ := idx_facts t
  funext y
  show V c main_v36 (((cfg2.win 2).blk t).view.emb y) = V c main_v36 (ix2 _ (y 1))
  refine congrArg (V c main_v36) (funext fun a => Fin.ext ?_)
  match a with
  | ⟨0, _⟩ => show win2_2.index t (0 : Fin 2) * 256 + 1 * (y 0).val = t.val * 256 + (y 0).val; rw [e20]; omega
  | ⟨1, _⟩ => show win2_2.index t (1 : Fin 2) * 1024 + 1 * (y 1).val = (y 1).val; rw [e21]; omega
/-- Window 3's block at every point is its whole array. -/
theorem blk_wx (c : Dev nD) (t : Fin cfg2.N) : iblk2 V c 3 t = V c main_v38 := by
  obtain ⟨e00, e01, e10, e11, e20, e21, e30, e31, e40, e41, e50, e51, e52, e60, e61, e62⟩ := idx_facts t
  funext y
  show V c main_v38 (((cfg2.win 3).blk t).view.emb y) = V c main_v38 y
  refine congrArg (V c main_v38) (funext fun a => Fin.ext ?_)
  match a with
  | ⟨0, _⟩ => show win2_3.index t (0 : Fin 2) * 4096 + 1 * (y 0).val = (y 0).val; rw [e30]; omega
  | ⟨1, _⟩ => show win2_3.index t (1 : Fin 2) * 1024 + 1 * (y 1).val = (y 1).val; rw [e31]; omega
/-- Window 4's block at every point is its whole array. -/
theorem blk_wh (c : Dev nD) (t : Fin cfg2.N) : iblk2 V c 4 t = V c main_v40 := by
  obtain ⟨e00, e01, e10, e11, e20, e21, e30, e31, e40, e41, e50, e51, e52, e60, e61, e62⟩ := idx_facts t
  funext y
  show V c main_v40 (((cfg2.win 4).blk t).view.emb y) = V c main_v40 y
  refine congrArg (V c main_v40) (funext fun a => Fin.ext ?_)
  match a with
  | ⟨0, _⟩ => show win2_4.index t (0 : Fin 2) * 4096 + 1 * (y 0).val = (y 0).val; rw [e40]; omega
  | ⟨1, _⟩ => show win2_4.index t (1 : Fin 2) * 1024 + 1 * (y 1).val = (y 1).val; rw [e41]; omega

/-- What point `t` writes back through output window 5 is block `t` of the hidden-state array with layer 2 replaced by the cell's result. -/
theorem hid_flushed (c : Dev nD) (t : Fin cfg2.N) :
    (dat2 V c).flushed 5 t = ((cfg2.win 5).blk t).view.read (Elt Ideal)
      (updSlab (V c main_v41_0) 2 (cellH (V c main_v32) (V c main_v34) (V c main_v36) (V c main_v38) (V c main_v40))) := by
  show (cfg2.win 5).cut (grid2.coords t) ((dat2 V c).after 5 t) = _
  rw [after2_5]
  unfold outsAt2
  dsimp only
  rw [out5_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg2.win 5).blk t).view.emb (ix3 q r d)) 0).val = (2 : Fin 4).val := by
    show win2_5.index t (0 : Fin 3) * 1 + 1 * q.val = 2; rw [e50, hq]
  have hi1 : (((cfg2.win 5).blk t).view.emb (ix3 q r d)) 1 = rowAt (pt t) r := Fin.ext (by
    show win2_5.index t (1 : Fin 3) * 256 + 1 * r.val = t.val * 256 + r.val; rw [e51]; omega)
  have hi2 : (((cfg2.win 5).blk t).view.emb (ix3 q r d)) 2 = d := Fin.ext (by
    show win2_5.index t (2 : Fin 3) * 1024 + 1 * d.val = d.val; rw [e52]; omega)
  show k2_pay3 (F := Ideal) _ _ _ _ _ (ix3 q r d) = updSlab _ _ _ (((cfg2.win 5).blk t).view.emb (ix3 q r d))
  rw [pay3_2, pay3_apply, bcellH_rowsOf]
  unfold updSlab
  rw [if_pos hi0]
  show _ = cellHAt _ _ _ _ _ ((((cfg2.win 5).blk t).view.emb (ix3 q r d)) 1) ((((cfg2.win 5).blk t).view.emb (ix3 q r d)) 2)
  rw [hi1, hi2]

/-- An index of the hidden-state array is in point `t`'s block iff each coordinate is in the block's range on its axis. -/
theorem hid_mem_blk (t : Fin cfg2.N) (i : S4x4096x1024.Idx) :
    i ∈ ((cfg2.win 5).blk t).view.set ↔ ∀ a : Fin 3, win2_5.index t a * S1x256x1024.size a ≤ (i a).val ∧ (i a).val < win2_5.index t a * S1x256x1024.size a + S1x256x1024.size a := by
  show i ∈ ((View.whole main_v41_0).slice (win2_5.rect t)).set ↔ _
  rw [View.set_slice_whole, Rect.mem_set_unit]
  exact Iff.rfl

/-- The indices some point's block covers are exactly those of layer 2. -/
theorem hid_covered_iff (i : S4x4096x1024.Idx) :
    (∃ t : Fin cfg2.N, (cfg2.win 5).flush t = true ∧ i ∈ ((cfg2.win 5).blk t).view.set) ↔ (i 0).val = (2 : Fin 4).val := by
  constructor
  · rintro ⟨t, -, hi⟩
    rw [hid_mem_blk] at hi
    have b0 : win2_5.index t (0 : Fin 3) * 1 ≤ (i 0).val ∧ (i 0).val < win2_5.index t (0 : Fin 3) * 1 + 1 := hi 0
    obtain ⟨e00, e01, e10, e11, e20, e21, e30, e31, e40, e41, e50, e51, e52, e60, e61, e62⟩ := idx_facts t
    show (i 0).val = 2
    omega
  · intro h
    have h' : (i 0).val = 2 := h
    have hi1 : (i 1).val < 4096 := (i 1).isLt
    have hi2 : (i 2).val < 1024 := (i 2).isLt
    have hN : (i 1).val / 256 < cfg2.N := by show (i 1).val / 256 < grid2.N; rw [N_2]; omega
    refine ⟨⟨(i 1).val / 256, hN⟩, flush2_5 _, ?_⟩
    rw [hid_mem_blk]
    obtain ⟨e00, e01, e10, e11, e20, e21, e30, e31, e40, e41, e50, e51, e52, e60, e61, e62⟩ := idx_facts ⟨(i 1).val / 256, hN⟩
    intro a
    match a with
    | ⟨0, _⟩ => show win2_5.index _ (0 : Fin 3) * 1 ≤ (i 0).val ∧ (i 0).val < win2_5.index _ (0 : Fin 3) * 1 + 1; rw [e50]; omega
    | ⟨1, _⟩ => show win2_5.index _ (1 : Fin 3) * 256 ≤ (i 1).val ∧ (i 1).val < win2_5.index _ (1 : Fin 3) * 256 + 256; rw [e51]; show (i 1).val / 256 * 256 ≤ (i 1).val ∧ (i 1).val < (i 1).val / 256 * 256 + 256; omega
    | ⟨2, _⟩ => show win2_5.index _ (2 : Fin 3) * 1024 ≤ (i 2).val ∧ (i 2).val < win2_5.index _ (2 : Fin 3) * 1024 + 1024; rw [e52]; omega

/-- The hidden-state array when the launch returns: its entry contents with layer 2 replaced by the cell's result. -/
theorem hid_final (c : Dev nD) :
    (dat2 V c).arrAt 5 cfg2.N = updSlab (V c main_v41_0) 2 (cellH (V c main_v32) (V c main_v34) (V c main_v36) (V c main_v38) (V c main_v40)) := by
  funext i
  rw [(dat2 V c).arrAt_eq_piecewise 5 _ (fun t _ => hid_flushed V c t) i, A_eq2]
  by_cases h : (i 0).val = (2 : Fin 4).val
  · rw [if_pos ((hid_covered_iff i).mpr h)]
  · rw [if_neg (fun hc => h ((hid_covered_iff i).mp hc))]
    show V c main_v41_0 i = updSlab (V c main_v41_0) 2 _ i
    unfold updSlab
    rw [if_neg h]

/-- What point `t` writes back through output window 6 is block `t` of the memory array with layer 2 replaced by the cell's result. -/
theorem mem_flushed (c : Dev nD) (t : Fin cfg2.N) :
    (dat2 V c).flushed 6 t = ((cfg2.win 6).blk t).view.read (Elt Ideal)
      (updSlab (V c main_v41_1) 2 (cellC (V c main_v32) (V c main_v34) (V c main_v36) (V c main_v38) (V c main_v40))) := by
  show (cfg2.win 6).cut (grid2.coords t) ((dat2 V c).after 6 t) = _
  rw [after2_6]
  unfold outsAt2
  dsimp only
  rw [out6_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg2.win 6).blk t).view.emb (ix3 q r d)) 0).val = (2 : Fin 4).val := by
    show win2_6.index t (0 : Fin 3) * 1 + 1 * q.val = 2; rw [e60, hq]
  have hi1 : (((cfg2.win 6).blk t).view.emb (ix3 q r d)) 1 = rowAt (pt t) r := Fin.ext (by
    show win2_6.index t (1 : Fin 3) * 256 + 1 * r.val = t.val * 256 + r.val; rw [e61]; omega)
  have hi2 : (((cfg2.win 6).blk t).view.emb (ix3 q r d)) 2 = d := Fin.ext (by
    show win2_6.index t (2 : Fin 3) * 1024 + 1 * d.val = d.val; rw [e62]; omega)
  show k2_pay4 (F := Ideal) _ _ _ _ _ (ix3 q r d) = updSlab _ _ _ (((cfg2.win 6).blk t).view.emb (ix3 q r d))
  rw [pay4_2, pay4_apply, bcellC_rowsOf]
  unfold updSlab
  rw [if_pos hi0]
  show _ = cellCAt _ _ _ _ _ ((((cfg2.win 6).blk t).view.emb (ix3 q r d)) 1) ((((cfg2.win 6).blk t).view.emb (ix3 q r d)) 2)
  rw [hi1, hi2]

/-- An index of the memory array is in point `t`'s block iff each coordinate is in the block's range on its axis. -/
theorem mem_mem_blk (t : Fin cfg2.N) (i : S4x4096x1024.Idx) :
    i ∈ ((cfg2.win 6).blk t).view.set ↔ ∀ a : Fin 3, win2_6.index t a * S1x256x1024.size a ≤ (i a).val ∧ (i a).val < win2_6.index t a * S1x256x1024.size a + S1x256x1024.size a := by
  show i ∈ ((View.whole main_v41_1).slice (win2_6.rect t)).set ↔ _
  rw [View.set_slice_whole, Rect.mem_set_unit]
  exact Iff.rfl

/-- The indices some point's block covers are exactly those of layer 2. -/
theorem mem_covered_iff (i : S4x4096x1024.Idx) :
    (∃ t : Fin cfg2.N, (cfg2.win 6).flush t = true ∧ i ∈ ((cfg2.win 6).blk t).view.set) ↔ (i 0).val = (2 : Fin 4).val := by
  constructor
  · rintro ⟨t, -, hi⟩
    rw [mem_mem_blk] at hi
    have b0 : win2_6.index t (0 : Fin 3) * 1 ≤ (i 0).val ∧ (i 0).val < win2_6.index t (0 : Fin 3) * 1 + 1 := hi 0
    obtain ⟨e00, e01, e10, e11, e20, e21, e30, e31, e40, e41, e50, e51, e52, e60, e61, e62⟩ := idx_facts t
    show (i 0).val = 2
    omega
  · intro h
    have h' : (i 0).val = 2 := h
    have hi1 : (i 1).val < 4096 := (i 1).isLt
    have hi2 : (i 2).val < 1024 := (i 2).isLt
    have hN : (i 1).val / 256 < cfg2.N := by show (i 1).val / 256 < grid2.N; rw [N_2]; omega
    refine ⟨⟨(i 1).val / 256, hN⟩, flush2_6 _, ?_⟩
    rw [mem_mem_blk]
    obtain ⟨e00, e01, e10, e11, e20, e21, e30, e31, e40, e41, e50, e51, e52, e60, e61, e62⟩ := idx_facts ⟨(i 1).val / 256, hN⟩
    intro a
    match a with
    | ⟨0, _⟩ => show win2_6.index _ (0 : Fin 3) * 1 ≤ (i 0).val ∧ (i 0).val < win2_6.index _ (0 : Fin 3) * 1 + 1; rw [e60]; omega
    | ⟨1, _⟩ => show win2_6.index _ (1 : Fin 3) * 256 ≤ (i 1).val ∧ (i 1).val < win2_6.index _ (1 : Fin 3) * 256 + 256; rw [e61]; show (i 1).val / 256 * 256 ≤ (i 1).val ∧ (i 1).val < (i 1).val / 256 * 256 + 256; omega
    | ⟨2, _⟩ => show win2_6.index _ (2 : Fin 3) * 1024 ≤ (i 2).val ∧ (i 2).val < win2_6.index _ (2 : Fin 3) * 1024 + 1024; rw [e62]; omega

/-- The memory array when the launch returns: its entry contents with layer 2 replaced by the cell's result. -/
theorem mem_final (c : Dev nD) :
    (dat2 V c).arrAt 6 cfg2.N = updSlab (V c main_v41_1) 2 (cellC (V c main_v32) (V c main_v34) (V c main_v36) (V c main_v38) (V c main_v40)) := by
  funext i
  rw [(dat2 V c).arrAt_eq_piecewise 6 _ (fun t _ => mem_flushed V c t) i, A_eq2]
  by_cases h : (i 0).val = (2 : Fin 4).val
  · rw [if_pos ((mem_covered_iff i).mpr h)]
  · rw [if_neg (fun hc => h ((mem_covered_iff i).mp hc))]
    show V c main_v41_1 i = updSlab (V c main_v41_1) 2 _ i
    unfold updSlab
    rw [if_neg h]

end Cert.KernelIdeal.Region2

end
-- ==== Proof.Region3.lean ====
/-
  Kernel launch 3 of the program (layer 3 of the stack): what its two output arrays hold when it returns.

  The launch runs the cell body at 16 grid points. Point `t` reads rows `256·t … 256·t + 255` of the layer's input,
  previous hidden state and previous memory, and both weight matrices whole, and writes back one 256 × 1024 block of
  new hidden state and one of new memory into layer 3 of the two stacked output arrays, at the same rows. The blocks of
  the 16 points tile layer 3; the other layers of the output arrays are never written and keep what they held when the
  launch was entered. So each output array ends as its entry contents with layer 3 replaced by the cell's result.
-/
import proofs.«122988_j25082609008752_2_alg».proof.Proof.KernelIdealFrame
import proofs.«122988_j25082609008752_2_alg».proof.Proof.KernelCell
import Idealize.ShloMosaic.Lib.Pipeline.Value

set_option maxRecDepth 16384

noncomputable section

namespace Cert.KernelIdeal.Region3

open Cert.KernelIdeal Cert.KernelIdeal.Gen Cert.KernelIdeal.Cell Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point as a number below 16. -/
def pt (t : Fin cfg3.N) : Fin 16 := ⟨t.val, by have h : t.val < grid3.N := t.isLt; rw [N_3] at h; exact h⟩

/-- The hidden-state block the body leaves in its staging buffer is its stored payload of the blocks it loaded. -/
theorem out5_eq (c : Dev nD) (i : grid3.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out3_A_5 (F := Ideal) c i a1 h1 a2 h2 a3 h3 a4 h4 a5 h5 a8 h8 a9 h9 x0 x1 x2 x3 x4 = k3_pay3 x0 x1 x3 x4 x2 := by
  unfold out3_A_5
  rw [View.read_writes_eq_canon _ _ _ (cover3_A_5 c i a1 h1 a2 h2 a3 h3 a4 h4 a5 h5 a8 h8 a9 h9 x0 x1 x2 x3 x4)]
  unfold kernelRun3_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The memory block the body leaves in its staging buffer is its stored payload of the blocks it loaded. -/
theorem out6_eq (c : Dev nD) (i : grid3.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S4096x1024 .bf16) (h4 : a4.IsWhole) (a5 : Memref sig .tc .vmem S4096x1024 .bf16) (h5 : a5.IsWhole) (a8 : Memref sig .tc .vmem S1x256x1024 .f32) (h8 : a8.IsWhole) (a9 : Memref sig .tc .vmem S1x256x1024 .f32) (h9 : a9.IsWhole)
    (x0 x1 x2 : Vec Ideal S256x1024 .f32) (x3 x4 : Vec Ideal S4096x1024 .bf16) :
    out3_A_6 (F := Ideal) c i a1 h1 a2 h2 a3 h3 a4 h4 a5 h5 a8 h8 a9 h9 x0 x1 x2 x3 x4 = k3_pay4 x0 x1 x3 x4 x2 := by
  unfold out3_A_6
  rw [View.read_writes_eq_canon _ _ _ (cover3_A_6 c i a1 h1 a2 h2 a3 h3 a4 h4 a5 h5 a8 h8 a9 h9 x0 x1 x2 x3 x4)]
  unfold kernelRun3_A
  dsimp only
  rw [View.canon_unit_zero hz3]
  simp only [View.readAt_eq_ld, h1.read_unread, h2.read_unread, h3.read_unread, h4.read_unread, h5.read_unread,
    View.ld_unit_zero (S := S256x1024) hz2, View.ld_unit_zero (S := S4096x1024) hz2]

/-- The printed index maps, decided over the grid: the three row windows sit at block row `t`, the two weight windows at
    the origin, the two output windows at layer 3, block row `t`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 3) = 3 ∧ win3_5.index t (1 : Fin 3) = t.val ∧ win3_5.index t (2 : Fin 3) = 0
    ∧ win3_6.index t (0 : Fin 3) = 3 ∧ win3_6.index t (1 : Fin 3) = t.val ∧ win3_6.index t (2 : Fin 3) = 0 :=
  (by decide +kernel : ∀ t : Fin grid3.N, _)

/-- Window 0's block at point `t` is rows `256·t … 256·t + 255` of its array. -/
theorem blk_x (c : Dev nD) (t : Fin cfg3.N) : iblk3 V c 0 t = rowsOf (V c main_v43) (pt t) := by
  obtain ⟨e00, e01, e10, e11, e20, e21, e30, e31, e40, e41, e50, e51, e52, e60, e61, e62⟩ := idx_facts t
  funext y
  show V c main_v43 (((cfg3.win 0).blk t).view.emb y) = V c main_v43 (ix2 _ (y 1))
  refine congrArg (V c main_v43) (funext fun a => Fin.ext ?_)
  match a with
  | ⟨0, _⟩ => show win3_0.index t (0 : Fin 2) * 256 + 1 * (y 0).val = t.val * 256 + (y 0).val; rw [e00]; omega
  | ⟨1, _⟩ => show win3_0.index t (1 : Fin 2) * 1024 + 1 * (y 1).val = (y 1).val; rw [e01]; omega
/-- Window 1's block at point `t` is rows `256·t … 256·t + 255` of its array. -/
theorem blk_h (c : Dev nD) (t : Fin cfg3.N) : iblk3 V c 1 t = rowsOf (V c main_v45) (pt t) := by
  obtain ⟨e00, e01, e10, e11, e20, e21, e30, e31, e40, e41, e50, e51, e52, e60, e61, e62⟩ := idx_facts t
  funext y
  show V c main_v45 (((cfg3.win 1).blk t).view.emb y) = V c main_v45 (ix2 _ (y 1))
  refine congrArg (V c main_v45) (funext fun a => Fin.ext ?_)
  match a with
  | ⟨0, _⟩ => show win3_1.index t (0 : Fin 2) * 256 + 1 * (y 0).val = t.val * 256 + (y 0).val; rw [e10]; omega
  | ⟨1, _⟩ => show win3_1.index t (1 : Fin 2) * 1024 + 1 * (y 1).val = (y 1).val; rw [e11]; omega
/-- Window 2's block at point `t` is rows `256·t … 256·t + 255` of its array. -/
theorem blk_c (c : Dev nD) (t : Fin cfg3.N) : iblk3 V c 2 t = rowsOf (V c main_v47) (pt t) := by
  obtain ⟨e00, e01, e10, e11, e20, e21, e30, e31, e40, e41, e50, e51, e52, e60, e61, e62⟩ := idx_facts t
  funext y
  show V c main_v47 (((cfg3.win 2).blk t).view.emb y) = V c main_v47 (ix2 _ (y 1))
  refine congrArg (V c main_v47) (funext fun a => Fin.ext ?_)
  match a with
  | ⟨0, _⟩ => show win3_2.index t (0 : Fin 2) * 256 + 1 * (y 0).val = t.val * 256 + (y 0).val; rw [e20]; omega
  | ⟨1, _⟩ => show win3_2.index t (1 : Fin 2) * 1024 + 1 * (y 1).val = (y 1).val; rw [e21]; omega
/-- Window 3's block at every point is its whole array. -/
theorem blk_wx (c : Dev nD) (t : Fin cfg3.N) : iblk3 V c 3 t = V c main_v49 := by
  obtain ⟨e00, e01, e10, e11, e20, e21, e30, e31, e40, e41, e50, e51, e52, e60, e61, e62⟩ := idx_facts t
  funext y
  show V c main_v49 (((cfg3.win 3).blk t).view.emb y) = V c main_v49 y
  refine congrArg (V c main_v49) (funext fun a => Fin.ext ?_)
  match a with
  | ⟨0, _⟩ => show win3_3.index t (0 : Fin 2) * 4096 + 1 * (y 0).val = (y 0).val; rw [e30]; omega
  | ⟨1, _⟩ => show win3_3.index t (1 : Fin 2) * 1024 + 1 * (y 1).val = (y 1).val; rw [e31]; omega
/-- Window 4's block at every point is its whole array. -/
theorem blk_wh (c : Dev nD) (t : Fin cfg3.N) : iblk3 V c 4 t = V c main_v51 := by
  obtain ⟨e00, e01, e10, e11, e20, e21, e30, e31, e40, e41, e50, e51, e52, e60, e61, e62⟩ := idx_facts t
  funext y
  show V c main_v51 (((cfg3.win 4).blk t).view.emb y) = V c main_v51 y
  refine congrArg (V c main_v51) (funext fun a => Fin.ext ?_)
  match a with
  | ⟨0, _⟩ => show win3_4.index t (0 : Fin 2) * 4096 + 1 * (y 0).val = (y 0).val; rw [e40]; omega
  | ⟨1, _⟩ => show win3_4.index t (1 : Fin 2) * 1024 + 1 * (y 1).val = (y 1).val; rw [e41]; omega

/-- What point `t` writes back through output window 5 is block `t` of the hidden-state array with layer 3 replaced by the cell's result. -/
theorem hid_flushed (c : Dev nD) (t : Fin cfg3.N) :
    (dat3 V c).flushed 5 t = ((cfg3.win 5).blk t).view.read (Elt Ideal)
      (updSlab (V c main_v52_0) 3 (cellH (V c main_v43) (V c main_v45) (V c main_v47) (V c main_v49) (V c main_v51))) := by
  show (cfg3.win 5).cut (grid3.coords t) ((dat3 V c).after 5 t) = _
  rw [after3_5]
  unfold outsAt3
  dsimp only
  rw [out5_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg3.win 5).blk t).view.emb (ix3 q r d)) 0).val = (3 : Fin 4).val := by
    show win3_5.index t (0 : Fin 3) * 1 + 1 * q.val = 3; rw [e50, hq]
  have hi1 : (((cfg3.win 5).blk t).view.emb (ix3 q r d)) 1 = rowAt (pt t) r := Fin.ext (by
    show win3_5.index t (1 : Fin 3) * 256 + 1 * r.val = t.val * 256 + r.val; rw [e51]; omega)
  have hi2 : (((cfg3.win 5).blk t).view.emb (ix3 q r d)) 2 = d := Fin.ext (by
    show win3_5.index t (2 : Fin 3) * 1024 + 1 * d.val = d.val; rw [e52]; omega)
  show k3_pay3 (F := Ideal) _ _ _ _ _ (ix3 q r d) = updSlab _ _ _ (((cfg3.win 5).blk t).view.emb (ix3 q r d))
  rw [pay3_3, pay3_apply, bcellH_rowsOf]
  unfold updSlab
  rw [if_pos hi0]
  show _ = cellHAt _ _ _ _ _ ((((cfg3.win 5).blk t).view.emb (ix3 q r d)) 1) ((((cfg3.win 5).blk t).view.emb (ix3 q r d)) 2)
  rw [hi1, hi2]

/-- An index of the hidden-state array is in point `t`'s block iff each coordinate is in the block's range on its axis. -/
theorem hid_mem_blk (t : Fin cfg3.N) (i : S4x4096x1024.Idx) :
    i ∈ ((cfg3.win 5).blk t).view.set ↔ ∀ a : Fin 3, win3_5.index t a * S1x256x1024.size a ≤ (i a).val ∧ (i a).val < win3_5.index t a * S1x256x1024.size a + S1x256x1024.size a := by
  show i ∈ ((View.whole main_v52_0).slice (win3_5.rect t)).set ↔ _
  rw [View.set_slice_whole, Rect.mem_set_unit]
  exact Iff.rfl

/-- The indices some point's block covers are exactly those of layer 3. -/
theorem hid_covered_iff (i : S4x4096x1024.Idx) :
    (∃ t : Fin cfg3.N, (cfg3.win 5).flush t = true ∧ i ∈ ((cfg3.win 5).blk t).view.set) ↔ (i 0).val = (3 : Fin 4).val := by
  constructor
  · rintro ⟨t, -, hi⟩
    rw [hid_mem_blk] at hi
    have b0 : win3_5.index t (0 : Fin 3) * 1 ≤ (i 0).val ∧ (i 0).val < win3_5.index t (0 : Fin 3) * 1 + 1 := hi 0
    obtain ⟨e00, e01, e10, e11, e20, e21, e30, e31, e40, e41, e50, e51, e52, e60, e61, e62⟩ := idx_facts t
    show (i 0).val = 3
    omega
  · intro h
    have h' : (i 0).val = 3 := h
    have hi1 : (i 1).val < 4096 := (i 1).isLt
    have hi2 : (i 2).val < 1024 := (i 2).isLt
    have hN : (i 1).val / 256 < cfg3.N := by show (i 1).val / 256 < grid3.N; rw [N_3]; omega
    refine ⟨⟨(i 1).val / 256, hN⟩, flush3_5 _, ?_⟩
    rw [hid_mem_blk]
    obtain ⟨e00, e01, e10, e11, e20, e21, e30, e31, e40, e41, e50, e51, e52, e60, e61, e62⟩ := idx_facts ⟨(i 1).val / 256, hN⟩
    intro a
    match a with
    | ⟨0, _⟩ => show win3_5.index _ (0 : Fin 3) * 1 ≤ (i 0).val ∧ (i 0).val < win3_5.index _ (0 : Fin 3) * 1 + 1; rw [e50]; omega
    | ⟨1, _⟩ => show win3_5.index _ (1 : Fin 3) * 256 ≤ (i 1).val ∧ (i 1).val < win3_5.index _ (1 : Fin 3) * 256 + 256; rw [e51]; show (i 1).val / 256 * 256 ≤ (i 1).val ∧ (i 1).val < (i 1).val / 256 * 256 + 256; omega
    | ⟨2, _⟩ => show win3_5.index _ (2 : Fin 3) * 1024 ≤ (i 2).val ∧ (i 2).val < win3_5.index _ (2 : Fin 3) * 1024 + 1024; rw [e52]; omega

/-- The hidden-state array when the launch returns: its entry contents with layer 3 replaced by the cell's result. -/
theorem hid_final (c : Dev nD) :
    (dat3 V c).arrAt 5 cfg3.N = updSlab (V c main_v52_0) 3 (cellH (V c main_v43) (V c main_v45) (V c main_v47) (V c main_v49) (V c main_v51)) := by
  funext i
  rw [(dat3 V c).arrAt_eq_piecewise 5 _ (fun t _ => hid_flushed V c t) i, A_eq3]
  by_cases h : (i 0).val = (3 : Fin 4).val
  · rw [if_pos ((hid_covered_iff i).mpr h)]
  · rw [if_neg (fun hc => h ((hid_covered_iff i).mp hc))]
    show V c main_v52_0 i = updSlab (V c main_v52_0) 3 _ i
    unfold updSlab
    rw [if_neg h]

/-- What point `t` writes back through output window 6 is block `t` of the memory array with layer 3 replaced by the cell's result. -/
theorem mem_flushed (c : Dev nD) (t : Fin cfg3.N) :
    (dat3 V c).flushed 6 t = ((cfg3.win 6).blk t).view.read (Elt Ideal)
      (updSlab (V c main_v52_1) 3 (cellC (V c main_v43) (V c main_v45) (V c main_v47) (V c main_v49) (V c main_v51))) := by
  show (cfg3.win 6).cut (grid3.coords t) ((dat3 V c).after 6 t) = _
  rw [after3_6]
  unfold outsAt3
  dsimp only
  rw [out6_eq, blk_x V c t, blk_h V c t, blk_c V c t, blk_wx V c t, blk_wh V c t]
  obtain ⟨e00, e01, e10, e11, e20, e21, e30, e31, e40, e41, e50, e51, e52, e60, e61, e62⟩ := idx_facts t
  funext y
  obtain ⟨q, r, d, rfl⟩ : ∃ (q : Fin 1) (r : Fin 256) (d : Fin 1024), y = ix3 q r d := ⟨y 0, y 1, y 2, eq_ix3 y⟩
  have hq : q.val = 0 := by have := q.isLt; omega
  have hi0 : ((((cfg3.win 6).blk t).view.emb (ix3 q r d)) 0).val = (3 : Fin 4).val := by
    show win3_6.index t (0 : Fin 3) * 1 + 1 * q.val = 3; rw [e60, hq]
  have hi1 : (((cfg3.win 6).blk t).view.emb (ix3 q r d)) 1 = rowAt (pt t) r := Fin.ext (by
    show win3_6.index t (1 : Fin 3) * 256 + 1 * r.val = t.val * 256 + r.val; rw [e61]; omega)
  have hi2 : (((cfg3.win 6).blk t).view.emb (ix3 q r d)) 2 = d := Fin.ext (by
    show win3_6.index t (2 : Fin 3) * 1024 + 1 * d.val = d.val; rw [e62]; omega)
  show k3_pay4 (F := Ideal) _ _ _ _ _ (ix3 q r d) = updSlab _ _ _ (((cfg3.win 6).blk t).view.emb (ix3 q r d))
  rw [pay4_3, pay4_apply, bcellC_rowsOf]
  unfold updSlab
  rw [if_pos hi0]
  show _ = cellCAt _ _ _ _ _ ((((cfg3.win 6).blk t).view.emb (ix3 q r d)) 1) ((((cfg3.win 6).blk t).view.emb (ix3 q r d)) 2)
  rw [hi1, hi2]

/-- An index of the memory array is in point `t`'s block iff each coordinate is in the block's range on its axis. -/
theorem mem_mem_blk (t : Fin cfg3.N) (i : S4x4096x1024.Idx) :
    i ∈ ((cfg3.win 6).blk t).view.set ↔ ∀ a : Fin 3, win3_6.index t a * S1x256x1024.size a ≤ (i a).val ∧ (i a).val < win3_6.index t a * S1x256x1024.size a + S1x256x1024.size a := by
  show i ∈ ((View.whole main_v52_1).slice (win3_6.rect t)).set ↔ _
  rw [View.set_slice_whole, Rect.mem_set_unit]
  exact Iff.rfl

/-- The indices some point's block covers are exactly those of layer 3. -/
theorem mem_covered_iff (i : S4x4096x1024.Idx) :
    (∃ t : Fin cfg3.N, (cfg3.win 6).flush t = true ∧ i ∈ ((cfg3.win 6).blk t).view.set) ↔ (i 0).val = (3 : Fin 4).val := by
  constructor
  · rintro ⟨t, -, hi⟩
    rw [mem_mem_blk] at hi
    have b0 : win3_6.index t (0 : Fin 3) * 1 ≤ (i 0).val ∧ (i 0).val < win3_6.index t (0 : Fin 3) * 1 + 1 := hi 0
    obtain ⟨e00, e01, e10, e11, e20, e21, e30, e31, e40, e41, e50, e51, e52, e60, e61, e62⟩ := idx_facts t
    show (i 0).val = 3
    omega
  · intro h
    have h' : (i 0).val = 3 := h
    have hi1 : (i 1).val < 4096 := (i 1).isLt
    have hi2 : (i 2).val < 1024 := (i 2).isLt
    have hN : (i 1).val / 256 < cfg3.N := by show (i 1).val / 256 < grid3.N; rw [N_3]; omega
    refine ⟨⟨(i 1).val / 256, hN⟩, flush3_6 _, ?_⟩
    rw [mem_mem_blk]
    obtain ⟨e00, e01, e10, e11, e20, e21, e30, e31, e40, e41, e50, e51, e52, e60, e61, e62⟩ := idx_facts ⟨(i 1).val / 256, hN⟩
    intro a
    match a with
    | ⟨0, _⟩ => show win3_6.index _ (0 : Fin 3) * 1 ≤ (i 0).val ∧ (i 0).val < win3_6.index _ (0 : Fin 3) * 1 + 1; rw [e60]; omega
    | ⟨1, _⟩ => show win3_6.index _ (1 : Fin 3) * 256 ≤ (i 1).val ∧ (i 1).val < win3_6.index _ (1 : Fin 3) * 256 + 256; rw [e61]; show (i 1).val / 256 * 256 ≤ (i 1).val ∧ (i 1).val < (i 1).val / 256 * 256 + 256; omega
    | ⟨2, _⟩ => show win3_6.index _ (2 : Fin 3) * 1024 ≤ (i 2).val ∧ (i 2).val < win3_6.index _ (2 : Fin 3) * 1024 + 1024; rw [e62]; omega

/-- The memory array when the launch returns: its entry contents with layer 3 replaced by the cell's result. -/
theorem mem_final (c : Dev nD) :
    (dat3 V c).arrAt 6 cfg3.N = updSlab (V c main_v52_1) 3 (cellC (V c main_v43) (V c main_v45) (V c main_v47) (V c main_v49) (V c main_v51)) := by
  funext i
  rw [(dat3 V c).arrAt_eq_piecewise 6 _ (fun t _ => mem_flushed V c t) i, A_eq3]
  by_cases h : (i 0).val = (3 : Fin 4).val
  · rw [if_pos ((mem_covered_iff i).mpr h)]
  · rw [if_neg (fun hc => h ((mem_covered_iff i).mp hc))]
    show V c main_v52_1 i = updSlab (V c main_v52_1) 3 _ i
    unfold updSlab
    rw [if_neg h]

end Cert.KernelIdeal.Region3

end
-- ==== Proof.SlabRead.lean ====
/-
  A layer of a stack of matrices, read the way a program reads it: the slice holding one position of the leading axis,
  with that unit axis dropped, is the layer.
-/
import proofs.«122988_j25082609008752_2_alg».proof.Proof.Spec
import Idealize.ShloMosaic.Lib.Pipeline.Value
import Idealize.ShloMosaic.Lib.ValueLayout

noncomputable section

namespace Cert.Lstm

open Idealize.ShloMosaic Idealize.ShloMosaic.ValueIdx

/-- The slice `[o : o + 1, :, :]` of a stack, viewed as a matrix, is layer `l` when `o = l`: entry `(r, d)` of the
    view is entry `(0, r, d)` of the slice, which is entry `(o, r, d)` of the stack. -/
theorem slab_read_at (A : Stack) (l : Fin 4) (o : Nat) (ho : o = l.val)
    (h1 : (⟨3, ![4, 4096, 1024]⟩ : Shape).Slices ![o, 0, 0] ⟨3, ![1, 4096, 1024]⟩)
    (h2 : (⟨3, ![1, 4096, 1024]⟩ : Shape).ShapeCasts ⟨2, ![4096, 1024]⟩) :
    shapeCast ⟨2, ![4096, 1024]⟩ (extractStridedSlice ⟨3, ![1, 4096, 1024]⟩ ![o, 0, 0] A h1) h2 = slab A l := by
  funext j
  obtain ⟨r, d, rfl⟩ : ∃ (r : Fin 4096) (d : Fin 1024), j = ix2 r d := ⟨j 0, j 1, eq_ix2 j⟩
  refine (shapeCast_1ab_ab_apply _ h2 r d).trans ?_
  refine (extractStridedSlice_apply _ A h1 _ (ix3 l r d) fun a => ?_).trans rfl
  match a with
  | ⟨0, _⟩ => show l.val = o + 0; omega
  | ⟨1, _⟩ => show r.val = 0 + r.val; omega
  | ⟨2, _⟩ => show d.val = 0 + d.val; omega

theorem slab_read0 (A : Stack) (h1 : (⟨3, ![4, 4096, 1024]⟩ : Shape).Slices ![0, 0, 0] ⟨3, ![1, 4096, 1024]⟩)
    (h2 : (⟨3, ![1, 4096, 1024]⟩ : Shape).ShapeCasts ⟨2, ![4096, 1024]⟩) :
    shapeCast ⟨2, ![4096, 1024]⟩ (extractStridedSlice ⟨3, ![1, 4096, 1024]⟩ ![0, 0, 0] A h1) h2 = slab A 0 :=
  slab_read_at A 0 0 rfl h1 h2

theorem slab_read1 (A : Stack) (h1 : (⟨3, ![4, 4096, 1024]⟩ : Shape).Slices ![1, 0, 0] ⟨3, ![1, 4096, 1024]⟩)
    (h2 : (⟨3, ![1, 4096, 1024]⟩ : Shape).ShapeCasts ⟨2, ![4096, 1024]⟩) :
    shapeCast ⟨2, ![4096, 1024]⟩ (extractStridedSlice ⟨3, ![1, 4096, 1024]⟩ ![1, 0, 0] A h1) h2 = slab A 1 :=
  slab_read_at A 1 1 rfl h1 h2

theorem slab_read2 (A : Stack) (h1 : (⟨3, ![4, 4096, 1024]⟩ : Shape).Slices ![2, 0, 0] ⟨3, ![1, 4096, 1024]⟩)
    (h2 : (⟨3, ![1, 4096, 1024]⟩ : Shape).ShapeCasts ⟨2, ![4096, 1024]⟩) :
    shapeCast ⟨2, ![4096, 1024]⟩ (extractStridedSlice ⟨3, ![1, 4096, 1024]⟩ ![2, 0, 0] A h1) h2 = slab A 2 :=
  slab_read_at A 2 2 rfl h1 h2

theorem slab_read3 (A : Stack) (h1 : (⟨3, ![4, 4096, 1024]⟩ : Shape).Slices ![3, 0, 0] ⟨3, ![1, 4096, 1024]⟩)
    (h2 : (⟨3, ![1, 4096, 1024]⟩ : Shape).ShapeCasts ⟨2, ![4096, 1024]⟩) :
    shapeCast ⟨2, ![4096, 1024]⟩ (extractStridedSlice ⟨3, ![1, 4096, 1024]⟩ ![3, 0, 0] A h1) h2 = slab A 3 :=
  slab_read_at A 3 3 rfl h1 h2

end Cert.Lstm

end
-- ==== Proof.Compose.lean ====
/-
  The kernel program's two results, as functions of its arguments.

  Between the launches the host only re-lays data: it cuts layer `l` out of the stacked arguments (previous hidden
  states, previous memories, the two weight stacks, whose change of float format is the identity on the extended reals)
  and, from the second launch on, cuts the previous layer's new hidden state out of the stacked result to feed the next
  layer. Launch `l` replaces layer `l` of both result stacks by the cell's result and leaves the other layers alone. Folding
  the four launches, the hidden-state result is the stack of the four layers' new hidden states and the memory result the
  stack of their new memories, whatever the two stacks held before the first launch.
-/
import proofs.«122988_j25082609008752_2_alg».proof.Proof.KernelIdealFrame
import proofs.«122988_j25082609008752_2_alg».proof.Proof.Region0
import proofs.«122988_j25082609008752_2_alg».proof.Proof.Region1
import proofs.«122988_j25082609008752_2_alg».proof.Proof.Region2
import proofs.«122988_j25082609008752_2_alg».proof.Proof.Region3
import proofs.«122988_j25082609008752_2_alg».proof.Proof.SlabRead
import Idealize.ShloMosaic.Lib.StableHlo.Run

set_option maxRecDepth 16384

noncomputable section

namespace Cert.KernelIdeal.Compose

open Cert.KernelIdeal Cert.KernelIdeal.Gen Cert.Lstm
open Idealize.ShloMosaic Idealize.ShloMosaic.TcCoe Idealize.SL.Sem Idealize.ShloMosaic.StableHlo

variable (m : (ℓ : Loc nD τ sig) → Buf (Elt Ideal) ℓ) (ρ : Dev nD → PrngReg)

/-- The embedded input rows: the table's rows gathered at the token indices, a negative index wrapped once. -/
def emb (E : FVec Ideal S32000x1024 .f32) (tok : IVec S4096 32) : FVec Ideal S4096x1024 .f32 :=
  Host.gather gather_S32000x1024_S4096x1_S4096x1024_1_0_n_n_0_1_11024 E (broadcastInDim S4096x1 ![0] bcast_S4096_S4096x1_0 (select (cmpi .slt tok (broadcastInDim S4096 ![] bcast_S_S4096 (constantI S_ 32 0#32))) (addi tok (broadcastInDim S4096 ![] bcast_S_S4096 (constantI S_ 32 32000#32))) tok))

/-- The arguments as launched: the input rows, the stacked previous hidden states and memories, the two weight stacks. -/
abbrev X0 (c : Dev nD) : Mat := emb (m ((c : Thread nD τ).loc main_arg3)) (m ((c : Thread nD τ).loc main_arg2))
abbrev HS (c : Dev nD) : Stack := m ((c : Thread nD τ).loc main_arg0)
abbrev CS (c : Dev nD) : Stack := m ((c : Thread nD τ).loc main_arg1)
abbrev WX (c : Dev nD) : Stack := m ((c : Thread nD τ).loc main_arg4)
abbrev WH (c : Dev nD) : Stack := m ((c : Thread nD τ).loc main_arg5)

/-- The two result stacks after each launch. -/
abbrev HA0 (c : Dev nD) : Stack := updSlab (V1 m ρ c main_v19_0) 0 (hid0 (X0 m c) (HS m c) (CS m c) (WX m c) (WH m c))
abbrev CA0 (c : Dev nD) : Stack := updSlab (V1 m ρ c main_v19_1) 0 (mem0 (X0 m c) (HS m c) (CS m c) (WX m c) (WH m c))
abbrev HA1 (c : Dev nD) : Stack := updSlab (HA0 m ρ c) 1 (hid1 (X0 m c) (HS m c) (CS m c) (WX m c) (WH m c))
abbrev CA1 (c : Dev nD) : Stack := updSlab (CA0 m ρ c) 1 (mem1 (X0 m c) (HS m c) (CS m c) (WX m c) (WH m c))
abbrev HA2 (c : Dev nD) : Stack := updSlab (HA1 m ρ c) 2 (hid2 (X0 m c) (HS m c) (CS m c) (WX m c) (WH m c))
abbrev CA2 (c : Dev nD) : Stack := updSlab (CA1 m ρ c) 2 (mem2 (X0 m c) (HS m c) (CS m c) (WX m c) (WH m c))
abbrev HA3 (c : Dev nD) : Stack := updSlab (HA2 m ρ c) 3 (hid3 (X0 m c) (HS m c) (CS m c) (WX m c) (WH m c))
abbrev CA3 (c : Dev nD) : Stack := updSlab (CA2 m ρ c) 3 (mem3 (X0 m c) (HS m c) (CS m c) (WX m c) (WH m c))

/-! ## The stacked arguments reach every launch unchanged -/

theorem W1_main_arg0 (c : Dev nD) : W1 m ρ c (Proc.devRef .tc main_arg0) = HS m c := by
  show StableHlo.after hostOps0 (W0 m ρ c) (Proc.devRef .tc main_arg0) = _
  after_results <;> rfl
theorem W2_main_arg0 (c : Dev nD) : W2 m ρ c (Proc.devRef .tc main_arg0) = HS m c :=
  (W2_of_ne m ρ c main_arg0 (by decide)).trans (W1_main_arg0 m ρ c)
theorem W3_main_arg0 (c : Dev nD) : W3 m ρ c (Proc.devRef .tc main_arg0) = HS m c :=
  Eq.trans (by show StableHlo.after hostOps1 (W2 m ρ c) _ = W2 m ρ c _; after_results) (W2_main_arg0 m ρ c)
theorem W4_main_arg0 (c : Dev nD) : W4 m ρ c (Proc.devRef .tc main_arg0) = HS m c :=
  (W4_of_ne m ρ c main_arg0 (by decide)).trans (W3_main_arg0 m ρ c)
theorem W5_main_arg0 (c : Dev nD) : W5 m ρ c (Proc.devRef .tc main_arg0) = HS m c :=
  Eq.trans (by show StableHlo.after hostOps2 (W4 m ρ c) _ = W4 m ρ c _; after_results) (W4_main_arg0 m ρ c)
theorem W6_main_arg0 (c : Dev nD) : W6 m ρ c (Proc.devRef .tc main_arg0) = HS m c :=
  (W6_of_ne m ρ c main_arg0 (by decide)).trans (W5_main_arg0 m ρ c)

theorem W1_main_arg1 (c : Dev nD) : W1 m ρ c (Proc.devRef .tc main_arg1) = CS m c := by
  show StableHlo.after hostOps0 (W0 m ρ c) (Proc.devRef .tc main_arg1) = _
  after_results <;> rfl
theorem W2_main_arg1 (c : Dev nD) : W2 m ρ c (Proc.devRef .tc main_arg1) = CS m c :=
  (W2_of_ne m ρ c main_arg1 (by decide)).trans (W1_main_arg1 m ρ c)
theorem W3_main_arg1 (c : Dev nD) : W3 m ρ c (Proc.devRef .tc main_arg1) = CS m c :=
  Eq.trans (by show StableHlo.after hostOps1 (W2 m ρ c) _ = W2 m ρ c _; after_results) (W2_main_arg1 m ρ c)
theorem W4_main_arg1 (c : Dev nD) : W4 m ρ c (Proc.devRef .tc main_arg1) = CS m c :=
  (W4_of_ne m ρ c main_arg1 (by decide)).trans (W3_main_arg1 m ρ c)
theorem W5_main_arg1 (c : Dev nD) : W5 m ρ c (Proc.devRef .tc main_arg1) = CS m c :=
  Eq.trans (by show StableHlo.after hostOps2 (W4 m ρ c) _ = W4 m ρ c _; after_results) (W4_main_arg1 m ρ c)
theorem W6_main_arg1 (c : Dev nD) : W6 m ρ c (Proc.devRef .tc main_arg1) = CS m c :=
  (W6_of_ne m ρ c main_arg1 (by decide)).trans (W5_main_arg1 m ρ c)

theorem W1_main_v7 (c : Dev nD) : W1 m ρ c (Proc.devRef .tc main_v7) = WX m c := by
  show StableHlo.after hostOps0 (W0 m ρ c) (Proc.devRef .tc main_v7) = _
  after_results <;> rfl
theorem W2_main_v7 (c : Dev nD) : W2 m ρ c (Proc.devRef .tc main_v7) = WX m c :=
  (W2_of_ne m ρ c main_v7 (by decide)).trans (W1_main_v7 m ρ c)
theorem W3_main_v7 (c : Dev nD) : W3 m ρ c (Proc.devRef .tc main_v7) = WX m c :=
  Eq.trans (by show StableHlo.after hostOps1 (W2 m ρ c) _ = W2 m ρ c _; after_results) (W2_main_v7 m ρ c)
theorem W4_main_v7 (c : Dev nD) : W4 m ρ c (Proc.devRef .tc main_v7) = WX m c :=
  (W4_of_ne m ρ c main_v7 (by decide)).trans (W3_main_v7 m ρ c)
theorem W5_main_v7 (c : Dev nD) : W5 m ρ c (Proc.devRef .tc main_v7) = WX m c :=
  Eq.trans (by show StableHlo.after hostOps2 (W4 m ρ c) _ = W4 m ρ c _; after_results) (W4_main_v7 m ρ c)
theorem W6_main_v7 (c : Dev nD) : W6 m ρ c (Proc.devRef .tc main_v7) = WX m c :=
  (W6_of_ne m ρ c main_v7 (by decide)).trans (W5_main_v7 m ρ c)

theorem W1_main_v8 (c : Dev nD) : W1 m ρ c (Proc.devRef .tc main_v8) = WH m c := by
  show StableHlo.after hostOps0 (W0 m ρ c) (Proc.devRef .tc main_v8) = _
  after_results <;> rfl
theorem W2_main_v8 (c : Dev nD) : W2 m ρ c (Proc.devRef .tc main_v8) = WH m c :=
  (W2_of_ne m ρ c main_v8 (by decide)).trans (W1_main_v8 m ρ c)
theorem W3_main_v8 (c : Dev nD) : W3 m ρ c (Proc.devRef .tc main_v8) = WH m c :=
  Eq.trans (by show StableHlo.after hostOps1 (W2 m ρ c) _ = W2 m ρ c _; after_results) (W2_main_v8 m ρ c)
theorem W4_main_v8 (c : Dev nD) : W4 m ρ c (Proc.devRef .tc main_v8) = WH m c :=
  (W4_of_ne m ρ c main_v8 (by decide)).trans (W3_main_v8 m ρ c)
theorem W5_main_v8 (c : Dev nD) : W5 m ρ c (Proc.devRef .tc main_v8) = WH m c :=
  Eq.trans (by show StableHlo.after hostOps2 (W4 m ρ c) _ = W4 m ρ c _; after_results) (W4_main_v8 m ρ c)
theorem W6_main_v8 (c : Dev nD) : W6 m ρ c (Proc.devRef .tc main_v8) = WH m c :=
  (W6_of_ne m ρ c main_v8 (by decide)).trans (W5_main_v8 m ρ c)

/-! ## Launch 0 (layer 0) -/

theorem x_0 (c : Dev nD) : V1 m ρ c main_v6 = X0 m c := by
  show StableHlo.after hostOps0 (W0 m ρ c) (Proc.devRef .tc main_v6) = _
  after_results <;> rfl
theorem h_0 (c : Dev nD) : V1 m ρ c main_v12 = slab (HS m c) 0 := by
  show StableHlo.after hostOps0 (W0 m ρ c) (Proc.devRef .tc main_v12) = _
  after_results
  exact slab_read0 _ _ _
theorem c_0 (c : Dev nD) : V1 m ρ c main_v14 = slab (CS m c) 0 := by
  show StableHlo.after hostOps0 (W0 m ρ c) (Proc.devRef .tc main_v14) = _
  after_results
  exact slab_read0 _ _ _
theorem wx_0 (c : Dev nD) : V1 m ρ c main_v16 = slab (WX m c) 0 := by
  show StableHlo.after hostOps0 (W0 m ρ c) (Proc.devRef .tc main_v16) = _
  after_results
  exact slab_read0 _ _ _
theorem wh_0 (c : Dev nD) : V1 m ρ c main_v18 = slab (WH m c) 0 := by
  show StableHlo.after hostOps0 (W0 m ρ c) (Proc.devRef .tc main_v18) = _
  after_results
  exact slab_read0 _ _ _
/-- The hidden-state stack when launch 0 returns. -/
theorem accH_0 (c : Dev nD) : W2 m ρ c (Proc.devRef .tc main_v19_0) = HA0 m ρ c := by
  refine (W2_arr m ρ c 5).trans ((Region0.hid_final (V1 m ρ) c).trans ?_)
  rw [x_0, h_0, c_0, wx_0, wh_0]
  rfl
/-- The memory stack when launch 0 returns. -/
theorem accC_0 (c : Dev nD) : W2 m ρ c (Proc.devRef .tc main_v19_1) = CA0 m ρ c := by
  refine (W2_arr m ρ c 6).trans ((Region0.mem_final (V1 m ρ) c).trans ?_)
  rw [x_0, h_0, c_0, wx_0, wh_0]
  rfl

/-! ## Launch 1 (layer 1) -/

theorem x_1 (c : Dev nD) : V3 m ρ c main_v21 = hid0 (X0 m c) (HS m c) (CS m c) (WX m c) (WH m c) :=
  Eq.trans (by
    show StableHlo.after hostOps1 (W2 m ρ c) (Proc.devRef .tc main_v21) = slab (W2 m ρ c (Proc.devRef .tc main_v19_0)) 0
    after_results
    exact slab_read0 _ _ _) (by rw [accH_0]; exact slab_updSlab_same _ _ _)
theorem h_1 (c : Dev nD) : V3 m ρ c main_v23 = slab (HS m c) 1 :=
  Eq.trans (by
    show StableHlo.after hostOps1 (W2 m ρ c) (Proc.devRef .tc main_v23) = slab (W2 m ρ c (Proc.devRef .tc main_arg0)) 1
    after_results
    exact slab_read1 _ _ _) (by rw [W2_main_arg0])
theorem c_1 (c : Dev nD) : V3 m ρ c main_v25 = slab (CS m c) 1 :=
  Eq.trans (by
    show StableHlo.after hostOps1 (W2 m ρ c) (Proc.devRef .tc main_v25) = slab (W2 m ρ c (Proc.devRef .tc main_arg1)) 1
    after_results
    exact slab_read1 _ _ _) (by rw [W2_main_arg1])
theorem wx_1 (c : Dev nD) : V3 m ρ c main_v27 = slab (WX m c) 1 :=
  Eq.trans (by
    show StableHlo.after hostOps1 (W2 m ρ c) (Proc.devRef .tc main_v27) = slab (W2 m ρ c (Proc.devRef .tc main_v7)) 1
    after_results
    exact slab_read1 _ _ _) (by rw [W2_main_v7])
theorem wh_1 (c : Dev nD) : V3 m ρ c main_v29 = slab (WH m c) 1 :=
  Eq.trans (by
    show StableHlo.after hostOps1 (W2 m ρ c) (Proc.devRef .tc main_v29) = slab (W2 m ρ c (Proc.devRef .tc main_v8)) 1
    after_results
    exact slab_read1 _ _ _) (by rw [W2_main_v8])
theorem a0_1 (c : Dev nD) : V3 m ρ c main_v30_0 = HA0 m ρ c :=
  Eq.trans (by
    show StableHlo.after hostOps1 (W2 m ρ c) (Proc.devRef .tc main_v30_0) = W2 m ρ c (Proc.devRef .tc main_v19_0)
    after_results <;> rfl) (accH_0 m ρ c)
theorem a1_1 (c : Dev nD) : V3 m ρ c main_v30_1 = CA0 m ρ c :=
  Eq.trans (by
    show StableHlo.after hostOps1 (W2 m ρ c) (Proc.devRef .tc main_v30_1) = W2 m ρ c (Proc.devRef .tc main_v19_1)
    after_results <;> rfl) (accC_0 m ρ c)
/-- The hidden-state stack when launch 1 returns. -/
theorem accH_1 (c : Dev nD) : W4 m ρ c (Proc.devRef .tc main_v30_0) = HA1 m ρ c := by
  refine (W4_arr m ρ c 5).trans ((Region1.hid_final (V3 m ρ) c).trans ?_)
  rw [x_1, h_1, c_1, wx_1, wh_1, a0_1]
  rfl
/-- The memory stack when launch 1 returns. -/
theorem accC_1 (c : Dev nD) : W4 m ρ c (Proc.devRef .tc main_v30_1) = CA1 m ρ c := by
  refine (W4_arr m ρ c 6).trans ((Region1.mem_final (V3 m ρ) c).trans ?_)
  rw [x_1, h_1, c_1, wx_1, wh_1, a1_1]
  rfl

/-! ## Launch 2 (layer 2) -/

theorem x_2 (c : Dev nD) : V5 m ρ c main_v32 = hid1 (X0 m c) (HS m c) (CS m c) (WX m c) (WH m c) :=
  Eq.trans (by
    show StableHlo.after hostOps2 (W4 m ρ c) (Proc.devRef .tc main_v32) = slab (W4 m ρ c (Proc.devRef .tc main_v30_0)) 1
    after_results
    exact slab_read1 _ _ _) (by rw [accH_1]; exact slab_updSlab_same _ _ _)
theorem h_2 (c : Dev nD) : V5 m ρ c main_v34 = slab (HS m c) 2 :=
  Eq.trans (by
    show StableHlo.after hostOps2 (W4 m ρ c) (Proc.devRef .tc main_v34) = slab (W4 m ρ c (Proc.devRef .tc main_arg0)) 2
    after_results
    exact slab_read2 _ _ _) (by rw [W4_main_arg0])
theorem c_2 (c : Dev nD) : V5 m ρ c main_v36 = slab (CS m c) 2 :=
  Eq.trans (by
    show StableHlo.after hostOps2 (W4 m ρ c) (Proc.devRef .tc main_v36) = slab (W4 m ρ c (Proc.devRef .tc main_arg1)) 2
    after_results
    exact slab_read2 _ _ _) (by rw [W4_main_arg1])
theorem wx_2 (c : Dev nD) : V5 m ρ c main_v38 = slab (WX m c) 2 :=
  Eq.trans (by
    show StableHlo.after hostOps2 (W4 m ρ c) (Proc.devRef .tc main_v38) = slab (W4 m ρ c (Proc.devRef .tc main_v7)) 2
    after_results
    exact slab_read2 _ _ _) (by rw [W4_main_v7])
theorem wh_2 (c : Dev nD) : V5 m ρ c main_v40 = slab (WH m c) 2 :=
  Eq.trans (by
    show StableHlo.after hostOps2 (W4 m ρ c) (Proc.devRef .tc main_v40) = slab (W4 m ρ c (Proc.devRef .tc main_v8)) 2
    after_results
    exact slab_read2 _ _ _) (by rw [W4_main_v8])
theorem a0_2 (c : Dev nD) : V5 m ρ c main_v41_0 = HA1 m ρ c :=
  Eq.trans (by
    show StableHlo.after hostOps2 (W4 m ρ c) (Proc.devRef .tc main_v41_0) = W4 m ρ c (Proc.devRef .tc main_v30_0)
    after_results <;> rfl) (accH_1 m ρ c)
theorem a1_2 (c : Dev nD) : V5 m ρ c main_v41_1 = CA1 m ρ c :=
  Eq.trans (by
    show StableHlo.after hostOps2 (W4 m ρ c) (Proc.devRef .tc main_v41_1) = W4 m ρ c (Proc.devRef .tc main_v30_1)
    after_results <;> rfl) (accC_1 m ρ c)
/-- The hidden-state stack when launch 2 returns. -/
theorem accH_2 (c : Dev nD) : W6 m ρ c (Proc.devRef .tc main_v41_0) = HA2 m ρ c := by
  refine (W6_arr m ρ c 5).trans ((Region2.hid_final (V5 m ρ) c).trans ?_)
  rw [x_2, h_2, c_2, wx_2, wh_2, a0_2]
  rfl
/-- The memory stack when launch 2 returns. -/
theorem accC_2 (c : Dev nD) : W6 m ρ c (Proc.devRef .tc main_v41_1) = CA2 m ρ c := by
  refine (W6_arr m ρ c 6).trans ((Region2.mem_final (V5 m ρ) c).trans ?_)
  rw [x_2, h_2, c_2, wx_2, wh_2, a1_2]
  rfl

/-! ## Launch 3 (layer 3) -/

theorem x_3 (c : Dev nD) : V7 m ρ c main_v43 = hid2 (X0 m c) (HS m c) (CS m c) (WX m c) (WH m c) :=
  Eq.trans (by
    show StableHlo.after hostOps3 (W6 m ρ c) (Proc.devRef .tc main_v43) = slab (W6 m ρ c (Proc.devRef .tc main_v41_0)) 2
    after_results
    exact slab_read2 _ _ _) (by rw [accH_2]; exact slab_updSlab_same _ _ _)
theorem h_3 (c : Dev nD) : V7 m ρ c main_v45 = slab (HS m c) 3 :=
  Eq.trans (by
    show StableHlo.after hostOps3 (W6 m ρ c) (Proc.devRef .tc main_v45) = slab (W6 m ρ c (Proc.devRef .tc main_arg0)) 3
    after_results
    exact slab_read3 _ _ _) (by rw [W6_main_arg0])
theorem c_3 (c : Dev nD) : V7 m ρ c main_v47 = slab (CS m c) 3 :=
  Eq.trans (by
    show StableHlo.after hostOps3 (W6 m ρ c) (Proc.devRef .tc main_v47) = slab (W6 m ρ c (Proc.devRef .tc main_arg1)) 3
    after_results
    exact slab_read3 _ _ _) (by rw [W6_main_arg1])
theorem wx_3 (c : Dev nD) : V7 m ρ c main_v49 = slab (WX m c) 3 :=
  Eq.trans (by
    show StableHlo.after hostOps3 (W6 m ρ c) (Proc.devRef .tc main_v49) = slab (W6 m ρ c (Proc.devRef .tc main_v7)) 3
    after_results
    exact slab_read3 _ _ _) (by rw [W6_main_v7])
theorem wh_3 (c : Dev nD) : V7 m ρ c main_v51 = slab (WH m c) 3 :=
  Eq.trans (by
    show StableHlo.after hostOps3 (W6 m ρ c) (Proc.devRef .tc main_v51) = slab (W6 m ρ c (Proc.devRef .tc main_v8)) 3
    after_results
    exact slab_read3 _ _ _) (by rw [W6_main_v8])
theorem a0_3 (c : Dev nD) : V7 m ρ c main_v52_0 = HA2 m ρ c :=
  Eq.trans (by
    show StableHlo.after hostOps3 (W6 m ρ c) (Proc.devRef .tc main_v52_0) = W6 m ρ c (Proc.devRef .tc main_v41_0)
    after_results <;> rfl) (accH_2 m ρ c)
theorem a1_3 (c : Dev nD) : V7 m ρ c main_v52_1 = CA2 m ρ c :=
  Eq.trans (by
    show StableHlo.after hostOps3 (W6 m ρ c) (Proc.devRef .tc main_v52_1) = W6 m ρ c (Proc.devRef .tc main_v41_1)
    after_results <;> rfl) (accC_2 m ρ c)
/-- The hidden-state stack when launch 3 returns. -/
theorem accH_3 (c : Dev nD) : W8 m ρ c (Proc.devRef .tc main_v52_0) = HA3 m ρ c := by
  refine (W8_arr m ρ c 5).trans ((Region3.hid_final (V7 m ρ) c).trans ?_)
  rw [x_3, h_3, c_3, wx_3, wh_3, a0_3]
  rfl
/-- The memory stack when launch 3 returns. -/
theorem accC_3 (c : Dev nD) : W8 m ρ c (Proc.devRef .tc main_v52_1) = CA3 m ρ c := by
  refine (W8_arr m ρ c 6).trans ((Region3.mem_final (V7 m ρ) c).trans ?_)
  rw [x_3, h_3, c_3, wx_3, wh_3, a1_3]
  rfl

/-! ## The results -/

/-- The hidden-state result is the stack of the four layers' new hidden states. -/
theorem result_h (c : Dev nD) : W9 m ρ c (Proc.devRef .tc main_v52_0) = outH (X0 m c) (HS m c) (CS m c) (WX m c) (WH m c) :=
  Eq.trans (by show StableHlo.after hostOps4 (W8 m ρ c) _ = W8 m ρ c _; after_results) ((accH_3 m ρ c).trans (updSlab_four _ _ _ _ _))

/-- The memory result is the stack of the four layers' new memories. -/
theorem result_c (c : Dev nD) : W9 m ρ c (Proc.devRef .tc main_v52_1) = outC (X0 m c) (HS m c) (CS m c) (WX m c) (WH m c) :=
  Eq.trans (by show StableHlo.after hostOps4 (W8 m ρ c) _ = W8 m ρ c _; after_results) ((accC_3 m ρ c).trans (updSlab_four _ _ _ _ _))

end Cert.KernelIdeal.Compose

end
-- ==== Proof.KernelValue.lean ====
/-
  The kernel program's run, with its results as functions of the arguments.

  Every execution of the program terminates, without a fault, with its first result the stack of the four layers' new
  hidden states, its second the stack of their new memories, and the arguments as launched.
-/
import proofs.«122988_j25082609008752_2_alg».proof.Proof.KernelRun
import proofs.«122988_j25082609008752_2_alg».proof.Proof.Compose

noncomputable section

namespace Cert.KernelIdeal.Value

open Cert.KernelIdeal Cert.KernelIdeal.Gen Cert.KernelIdeal.Compose Cert.Lstm
open Idealize.ShloMosaic Idealize.ShloMosaic.TcCoe Idealize.SL.Sem

variable (m : (ℓ : Loc nD τ sig) → Buf (Elt Ideal) ℓ) (ρ : Dev nD → PrngReg)

theorem run_spec : θ_run (defs (F := Ideal)) (onTc (τ := τ) (main (F := Ideal))) ⟨m, fun _ => 0, ρ⟩ (fun r => ∀ c : Dev nD,
      r.2.mem ((c.tc : Thread nD τ).loc main_v52_0) = outH (X0 m c) (HS m c) (CS m c) (WX m c) (WH m c)
      ∧ r.2.mem ((c.tc : Thread nD τ).loc main_v52_1) = outC (X0 m c) (HS m c) (CS m c) (WX m c) (WH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (result_h m ρ c), (h c).2.1.trans (result_c m ρ c), (h c).2.2⟩)
    (Cert.KernelIdeal.Results.run_results (F := Ideal) m ρ)

end Cert.KernelIdeal.Value

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibHostProduct.lean ====
/-
  The host's matrix product, read at an entry.

  For operands `[m, k]` and `[k, n]` contracted over the left operand's columns and the right operand's rows, entry
  `(r, c)` of the host's `dot_general` at the ideal values is the sum over the contracted coordinate `h` of
  `lhs (r, h) · rhs (h, c)`: the host's product has no accumulator, a kernel's product into a zero accumulator adds
  zero, so the two are the same sum over the contraction's index set, and that set is re-indexed by its coordinate.
-/
import Idealize.ShloMosaic.Lib.ValueIdx
import Idealize.ShloMosaic.PureOps.Ideal.Laws
import proofs.«122988_j25082609008752_2_alg».proof.Proof.LibMatProduct

noncomputable section

namespace Cert.LibHostProduct

open Idealize.ShloMosaic Idealize.ShloMosaic.ValueIdx

/-- The host's product and a kernel's product into a zero accumulator agree at every entry, whatever the shapes. -/
theorem hostDot_eq_matmul_zero {sl sr so : Shape} {φ₁ φ₂ : FTy} (d : DotDims sl sr so) (prec : Option ContractPrecision)
    (lhs : FVec Ideal sl φ₁) (rhs : FVec Ideal sr φ₂) (j : so.Idx) :
    Host.dotGeneral d prec lhs rhs j = FloatOps.matmul d prec lhs rhs (constant so .f32 0x00000000#32) j :=
  (Ideal.dotGeneral_apply d prec .single lhs rhs j).trans (Ideal.matmul_constant_zero_apply d prec lhs rhs j).symm

/-- Entry `(r, c)` of the host's `lhs · rhs` is `∑ h, lhs (r, h) · rhs (h, c)`. -/
theorem hostDot_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    Host.dotGeneral d prec lhs rhs (ix2 r c) = ∑ h : Fin k, lhs (ix2 r h) * rhs (ix2 h c) :=
  (hostDot_eq_matmul_zero d prec lhs rhs (ix2 r c)).trans
    (Cert.LibMatProduct.matmul_zero_apply d prec hlc hrc hln hrn hlb hrb lhs rhs r c)

end Cert.LibHostProduct

end
-- ==== Proof.RefCell.lean ====
/-
  One layer of the LSTM step as the reference computes it, met with the specification.

  The reference forms the gate pre-activations as one 4096 × 4096 matrix, the sum of two products against weight
  matrices stored by gate column, and views it as 4096 × 4 × 1024: column `1024·q + d` is entry `d` of gate group `q`.
  It cuts the four groups out, applies `1 / (1 + e⁻ˣ)` or `tanh` entry by entry and combines them. Read at an entry,
  each of these is the specification's formula at that entry.
-/
import proofs.«122988_j25082609008752_2_alg».proof.Proof.Gen.ReferenceIdeal
import proofs.«122988_j25082609008752_2_alg».proof.Proof.Spec
import proofs.«122988_j25082609008752_2_alg».proof.Proof.SlabRead
import proofs.«122988_j25082609008752_2_alg».proof.Proof.LibHostProduct
import proofs.«122988_j25082609008752_2_alg».proof.Proof.LibMatProductT
import Idealize.ShloMosaic.Lib.Pipeline.Value
import Idealize.ShloMosaic.Lib.ValueLayout

noncomputable section

namespace Cert.RefSide

open Cert.ReferenceIdeal Cert.ReferenceIdeal.Gen Idealize.ShloMosaic Idealize.ShloMosaic.ValueIdx

/-! ## The gate pre-activations -/

/-- The reference's gate pre-activations of one layer, viewed 4096 × 4 × 1024. -/
def hostGates (x h w u : FVec Ideal S4096x1024 .f32) : FVec Ideal S4096x4x1024 .f32 :=
  shapeCast _ (addf (Host.dotGeneral dot_S4096x1024_S4096x1024_S4096x4096_1_1_0_0_n_n none x w)
    (Host.dotGeneral dot_S4096x1024_S4096x1024_S4096x4096_1_1_0_0_n_n none h u)) shapeCasts_S4096x4096_S4096x4x1024

/-- Entry `(r, c)` of the reference's product of rows against a matrix stored by rows. -/
theorem hostDot_apply (a b : FVec Ideal S4096x1024 .f32) (r c : Fin 4096) :
    Host.dotGeneral dot_S4096x1024_S4096x1024_S4096x4096_1_1_0_0_n_n none a b (ix2 r c)
      = ∑ k : Fin 1024, a (ix2 r k) * b (ix2 c k) :=
  (Cert.LibHostProduct.hostDot_eq_matmul_zero dot_S4096x1024_S4096x1024_S4096x4096_1_1_0_0_n_n none a b (ix2 r c)).trans
    (Cert.LibMatProductT.matmul_rowsT_zero_apply dot_S4096x1024_S4096x1024_S4096x4096_1_1_0_0_n_n none rfl rfl rfl rfl rfl rfl a b r c)

/-- Entry `(r, q, d)` of the viewed pre-activations is the pre-activation of row `r` at gate column `1024·q + d`. -/
theorem hostGates_apply (x h w u : FVec Ideal S4096x1024 .f32) (r : Fin 4096) (q : Fin 4) (d : Fin 1024) :
    hostGates x h w u (ix3 r q d) = Cert.Lstm.gate x h w u r (Cert.Lstm.col q d) := by
  unfold hostGates
  refine (shapeCast_apply _ shapeCasts_S4096x4096_S4096x4x1024 _ (ix2 r (Cert.Lstm.col q d)) ?_).trans ?_
  · rw [Shape.rowMajor_val_two, Shape.rowMajor_val_three]
    show r.val * 4096 + (1024 * q.val + d.val) = (r.val * 4 + q.val) * 1024 + d.val
    omega
  · rw [addf_apply, hostDot_apply, hostDot_apply]
    rfl

/-! ## One gate group cut out of the view -/

/-- The slice `[:, o : o + 1, :]` of the viewed pre-activations with its unit axis dropped reads, at `(r, d)`, the view
    at `(r, q, d)` when `o = q`. -/
theorem gateSlice_apply {α : Type} (g : S4096x4x1024.Idx → α) (q : Fin 4) (o : Nat) (ho : o = q.val)
    (h1 : S4096x4x1024.Slices ![0, o, 0] S4096x1x1024) (h2 : S4096x1x1024.ShapeCasts S4096x1024)
    (r : Fin 4096) (d : Fin 1024) :
    shapeCast S4096x1024 (extractStridedSlice S4096x1x1024 ![0, o, 0] g h1) h2 (ix2 r d) = g (ix3 r q d) := by
  refine (shapeCast_apply _ h2 _ (ix3 r (0 : Fin 1) d) ?_).trans ?_
  · rw [Shape.rowMajor_val_three, Shape.rowMajor_val_two]
    show (r.val * 1 + 0) * 1024 + d.val = r.val * 1024 + d.val
    omega
  · exact slice3_axis1_apply o g h1 r 0 d q (by show q.val = o + 0; omega)

/-! ## The logistic function as the reference spells it -/

/-- `1 / (1 + e⁻ᶻ)` entry by entry, the two ones being the float word of `1` broadcast. -/
def hostSigmoid (z : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf z)))

theorem hostSigmoid_apply (z : FVec Ideal S4096x1024 .f32) (j : S4096x1024.Idx) :
    hostSigmoid z j = Ideal.logistic (z j) := by
  show Ideal.div (Ideal.ofBits .f32 0x3F800000#32) (Ideal.ofBits .f32 0x3F800000#32 + Ideal.exp (-(z j)))
    = Ideal.div 1 (1 + Ideal.exp (-(z j)))
  rw [Cert.LibMatProduct.one_word]

theorem hostTanh_apply (z : FVec Ideal S4096x1024 .f32) (j : S4096x1024.Idx) : Host.tanh z j = Ideal.tanh (z j) := rfl

/-! ## The new memory and the new hidden state -/

/-- Gate group `q` of the viewed pre-activations, as the reference cuts it out (`q` = 0, 1, 2, 3). -/
def grp0 (g : FVec Ideal S4096x4x1024 .f32) : FVec Ideal S4096x1024 .f32 :=
  shapeCast _ (extractStridedSlice S4096x1x1024 ![0, 0, 0] g slices_S4096x4x1024_S4096x1x1024_0_0_0) shapeCasts_S4096x1x1024_S4096x1024
def grp1 (g : FVec Ideal S4096x4x1024 .f32) : FVec Ideal S4096x1024 .f32 :=
  shapeCast _ (extractStridedSlice S4096x1x1024 ![0, 1, 0] g slices_S4096x4x1024_S4096x1x1024_0_1_0) shapeCasts_S4096x1x1024_S4096x1024
def grp2 (g : FVec Ideal S4096x4x1024 .f32) : FVec Ideal S4096x1024 .f32 :=
  shapeCast _ (extractStridedSlice S4096x1x1024 ![0, 2, 0] g slices_S4096x4x1024_S4096x1x1024_0_2_0) shapeCasts_S4096x1x1024_S4096x1024
def grp3 (g : FVec Ideal S4096x4x1024 .f32) : FVec Ideal S4096x1024 .f32 :=
  shapeCast _ (extractStridedSlice S4096x1x1024 ![0, 3, 0] g slices_S4096x4x1024_S4096x1x1024_0_3_0) shapeCasts_S4096x1x1024_S4096x1024

theorem grp0_apply (g : FVec Ideal S4096x4x1024 .f32) (r : Fin 4096) (d : Fin 1024) : grp0 g (ix2 r d) = g (ix3 r 0 d) :=
  gateSlice_apply g 0 0 rfl _ _ r d
theorem grp1_apply (g : FVec Ideal S4096x4x1024 .f32) (r : Fin 4096) (d : Fin 1024) : grp1 g (ix2 r d) = g (ix3 r 1 d) :=
  gateSlice_apply g 1 1 rfl _ _ r d
theorem grp2_apply (g : FVec Ideal S4096x4x1024 .f32) (r : Fin 4096) (d : Fin 1024) : grp2 g (ix2 r d) = g (ix3 r 2 d) :=
  gateSlice_apply g 2 2 rfl _ _ r d
theorem grp3_apply (g : FVec Ideal S4096x4x1024 .f32) (r : Fin 4096) (d : Fin 1024) : grp3 g (ix2 r d) = g (ix3 r 3 d) :=
  gateSlice_apply g 3 3 rfl _ _ r d

/-- The reference's new memory from the viewed pre-activations `g` and the previous memory `c`:
    `σ(group 2)·c + σ(group 0)·tanh(group 1)`. -/
def hostC (g : FVec Ideal S4096x4x1024 .f32) (c : FVec Ideal S4096x1024 .f32) : FVec Ideal S4096x1024 .f32 :=
  addf (mulf (hostSigmoid (grp2 g)) c) (mulf (hostSigmoid (grp0 g)) (Host.tanh (grp1 g)))

/-- The reference's new hidden state from the viewed pre-activations and the new memory: `σ(group 3)·tanh(memory)`. -/
def hostH (g : FVec Ideal S4096x4x1024 .f32) (cn : FVec Ideal S4096x1024 .f32) : FVec Ideal S4096x1024 .f32 :=
  mulf (hostSigmoid (grp3 g)) (Host.tanh cn)

/-- The reference's new memory of a layer is the specification's. -/
theorem hostC_eq (x h c w u : FVec Ideal S4096x1024 .f32) :
    hostC (hostGates x h w u) c = Cert.Lstm.cellC x h c w u := by
  funext j
  obtain ⟨r, d, rfl⟩ : ∃ (r : Fin 4096) (d : Fin 1024), j = ix2 r d := ⟨j 0, j 1, eq_ix2 j⟩
  unfold hostC
  rw [addf_apply, mulf_apply, mulf_apply, hostSigmoid_apply, hostSigmoid_apply, hostTanh_apply,
    grp0_apply, grp1_apply, grp2_apply, hostGates_apply, hostGates_apply, hostGates_apply]
  rfl

/-- The reference's new hidden state of a layer is the specification's. -/
theorem hostH_eq (x h c w u : FVec Ideal S4096x1024 .f32) :
    hostH (hostGates x h w u) (Cert.Lstm.cellC x h c w u) = Cert.Lstm.cellH x h c w u := by
  funext j
  obtain ⟨r, d, rfl⟩ : ∃ (r : Fin 4096) (d : Fin 1024), j = ix2 r d := ⟨j 0, j 1, eq_ix2 j⟩
  unfold hostH
  rw [mulf_apply, hostSigmoid_apply, hostTanh_apply, grp3_apply, hostGates_apply]
  rfl

/-! ## The results stacked -/

/-- The four matrices, each given a leading unit axis, joined along that axis are the stack of the four. -/
theorem concat4_eq (a0 a1 a2 a3 : FVec Ideal S4096x1024 .f32) :
    concatenate S4x4096x1024 0 [⟨S1x4096x1024, broadcastInDim S1x4096x1024 ![1, 2] bcast_S4096x1024_S1x4096x1024_1_2 a0⟩,
      ⟨S1x4096x1024, broadcastInDim S1x4096x1024 ![1, 2] bcast_S4096x1024_S1x4096x1024_1_2 a1⟩,
      ⟨S1x4096x1024, broadcastInDim S1x4096x1024 ![1, 2] bcast_S4096x1024_S1x4096x1024_1_2 a2⟩,
      ⟨S1x4096x1024, broadcastInDim S1x4096x1024 ![1, 2] bcast_S4096x1024_S1x4096x1024_1_2 a3⟩]
      concatenates_S1x4096x1024_S1x4096x1024_S1x4096x1024_S1x4096x1024_S4x4096x1024_d0
      = Cert.Lstm.stack4 a0 a1 a2 a3 := by
  funext i
  obtain ⟨l, r, d, rfl⟩ : ∃ (l : Fin 4) (r : Fin 4096) (d : Fin 1024), i = ix3 l r d := ⟨i 0, i 1, i 2, eq_ix3 i⟩
  have piece : ∀ (k : Nat) (hk4 : k < 4) (a : FVec Ideal S4096x1024 .f32)
      (xs : List ((s : Shape) × (s.Idx → Ideal .f32)))
      (hc : Shape.Concatenates (xs.map (·.1)) S4x4096x1024 0) (hk : k < xs.length)
      (hxk : xs[k] = ⟨S1x4096x1024, broadcastInDim S1x4096x1024 ![1, 2] bcast_S4096x1024_S1x4096x1024_1_2 a⟩)
      (hpre : (((xs.take k).map (·.1)).map fun s => if h : s.rank = S4x4096x1024.rank then s.size ((0 : Fin S4x4096x1024.rank).cast h.symm) else 0).sum = k),
      concatenate S4x4096x1024 0 xs hc (ix3 ⟨k, hk4⟩ r d) = a (ix2 r d) := by
    intro k hk4 a xs hc hk hxk hpre
    refine (concatenate_apply_piece 0 xs hc _ k hk S1x4096x1024 _ hxk rfl k hpre (ix3 (0 : Fin 1) r d) (fun b hb => ?_) ?_).trans ?_
    · match b with
      | ⟨0, _⟩ => exact absurd rfl hb
      | ⟨1, _⟩ => rfl
      | ⟨2, _⟩ => rfl
    · show k + 0 = k; omega
    · exact broadcastInDim_apply _ _ a _ (ix2 r d) fun b => by
        match b with
        | ⟨0, _⟩ => rfl
        | ⟨1, _⟩ => rfl
  match l with
  | ⟨0, _⟩ => exact (piece 0 (by omega) a0 _ _ (by show (0 : ℕ) < 4; omega) rfl rfl).trans rfl
  | ⟨1, _⟩ => exact (piece 1 (by omega) a1 _ _ (by show (1 : ℕ) < 4; omega) rfl rfl).trans rfl
  | ⟨2, _⟩ => exact (piece 2 (by omega) a2 _ _ (by show (2 : ℕ) < 4; omega) rfl rfl).trans rfl
  | ⟨3, _⟩ => exact (piece 3 (by omega) a3 _ _ (by show (3 : ℕ) < 4; omega) rfl rfl).trans rfl

end Cert.RefSide

end
-- ==== Proof.RefValue.lean ====
/-
  The reference program's run, met with the specification.

  The run ends with the two results at composed terms of the six arguments. Layer by layer, innermost first, each
  named sub-term is the specification's: the gate pre-activations of a layer are formed from the layer's input rows and
  its slabs of the four stacks, its new memory and new hidden state are the cell formulas of those, and the next layer
  takes the new hidden state as its input rows. The four hidden states, and the four memories, joined along a leading
  axis are the two stacked results.
-/
import proofs.«122988_j25082609008752_2_alg».proof.Proof.Gen.ReferenceIdeal.Run
import proofs.«122988_j25082609008752_2_alg».proof.Proof.RefCell

noncomputable section

namespace Cert.RefSide

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

/-- The embedded input rows: the reference's gather of the table's rows at the wrapped token indices (a negative
    index counts from the table's end). -/
def emb (E : FVec Ideal S32000x1024 .f32) (tok : IVec S4096 32) : FVec Ideal S4096x1024 .f32 :=
  Host.gather gather_S32000x1024_S4096x1_S4096x1024_1_0_n_n_0_1_11024 E (broadcastInDim S4096x1 ![0] bcast_S4096_S4096x1_0 (select (cmpi .slt tok (broadcastInDim S4096 ![] bcast_S_S4096 (constantI S_ 32 0#32))) (addi tok (broadcastInDim S4096 ![] bcast_S_S4096 (constantI S_ 32 32000#32))) tok))

/-! ## A layer of a stack as the reference reads it -/

def rd0 (A : FVec Ideal S4x4096x1024 .f32) : FVec Ideal S4096x1024 .f32 :=
  shapeCast _ (extractStridedSlice S1x4096x1024 ![0, 0, 0] A slices_S4x4096x1024_S1x4096x1024_0_0_0) shapeCasts_S1x4096x1024_S4096x1024
def rd1 (A : FVec Ideal S4x4096x1024 .f32) : FVec Ideal S4096x1024 .f32 :=
  shapeCast _ (extractStridedSlice S1x4096x1024 ![1, 0, 0] A slices_S4x4096x1024_S1x4096x1024_1_0_0) shapeCasts_S1x4096x1024_S4096x1024
def rd2 (A : FVec Ideal S4x4096x1024 .f32) : FVec Ideal S4096x1024 .f32 :=
  shapeCast _ (extractStridedSlice S1x4096x1024 ![2, 0, 0] A slices_S4x4096x1024_S1x4096x1024_2_0_0) shapeCasts_S1x4096x1024_S4096x1024
def rd3 (A : FVec Ideal S4x4096x1024 .f32) : FVec Ideal S4096x1024 .f32 :=
  shapeCast _ (extractStridedSlice S1x4096x1024 ![3, 0, 0] A slices_S4x4096x1024_S1x4096x1024_3_0_0) shapeCasts_S1x4096x1024_S4096x1024

theorem rd0_eq (A : FVec Ideal S4x4096x1024 .f32) : rd0 A = Cert.Lstm.slab A 0 := Cert.Lstm.slab_read0 A _ _
theorem rd1_eq (A : FVec Ideal S4x4096x1024 .f32) : rd1 A = Cert.Lstm.slab A 1 := Cert.Lstm.slab_read1 A _ _
theorem rd2_eq (A : FVec Ideal S4x4096x1024 .f32) : rd2 A = Cert.Lstm.slab A 2 := Cert.Lstm.slab_read2 A _ _
theorem rd3_eq (A : FVec Ideal S4x4096x1024 .f32) : rd3 A = Cert.Lstm.slab A 3 := Cert.Lstm.slab_read3 A _ _

/-! ## The named sub-terms of the run, layer by layer -/

section Layers
variable (V0 : Valuation τ sig (Elt Ideal))

/-- The six arguments as the specification's operands. -/
abbrev aX : FVec Ideal S4096x1024 .f32 := emb (V0 (Proc.devRef .tc main_arg3)) (V0 (Proc.devRef .tc main_arg2))
abbrev aH : FVec Ideal S4x4096x1024 .f32 := V0 (Proc.devRef .tc main_arg0)
abbrev aC : FVec Ideal S4x4096x1024 .f32 := V0 (Proc.devRef .tc main_arg1)
abbrev aW : FVec Ideal S4x4096x1024 .f32 := V0 (Proc.devRef .tc main_arg4)
abbrev aU : FVec Ideal S4x4096x1024 .f32 := V0 (Proc.devRef .tc main_arg5)

theorem v16_eq : res_main_v16 V0
    = hostGates (aX V0) (Cert.Lstm.slab (aH V0) 0) (Cert.Lstm.slab (aW V0) 0) (Cert.Lstm.slab (aU V0) 0) :=
  (show res_main_v16 V0 = hostGates (aX V0) (rd0 (aH V0)) (rd0 (aW V0)) (rd0 (aU V0)) from rfl).trans
    (by rw [rd0_eq, rd0_eq, rd0_eq])

theorem v48_eq : res_main_v48 V0 = Cert.Lstm.mem0 (aX V0) (aH V0) (aC V0) (aW V0) (aU V0) :=
  (show res_main_v48 V0 = hostC (res_main_v16 V0) (rd0 (aC V0)) from rfl).trans
    (by rw [v16_eq, rd0_eq, hostC_eq]; rfl)

theorem v50_eq : res_main_v50 V0 = Cert.Lstm.hid0 (aX V0) (aH V0) (aC V0) (aW V0) (aU V0) :=
  (show res_main_v50 V0 = hostH (res_main_v16 V0) (res_main_v48 V0) from rfl).trans
    (by rw [v16_eq, v48_eq]; exact hostH_eq _ _ _ _ _)

theorem v60_eq : res_main_v60 V0
    = hostGates (Cert.Lstm.hid0 (aX V0) (aH V0) (aC V0) (aW V0) (aU V0)) (Cert.Lstm.slab (aH V0) 1) (Cert.Lstm.slab (aW V0) 1)
        (Cert.Lstm.slab (aU V0) 1) :=
  (show res_main_v60 V0 = hostGates (res_main_v50 V0) (rd1 (aH V0)) (rd1 (aW V0)) (rd1 (aU V0)) from rfl).trans
    (by rw [v50_eq, rd1_eq, rd1_eq, rd1_eq])

theorem v92_eq : res_main_v92 V0 = Cert.Lstm.mem1 (aX V0) (aH V0) (aC V0) (aW V0) (aU V0) :=
  (show res_main_v92 V0 = hostC (res_main_v60 V0) (rd1 (aC V0)) from rfl).trans
    (by rw [v60_eq, rd1_eq, hostC_eq]; rfl)

theorem v94_eq : res_main_v94 V0 = Cert.Lstm.hid1 (aX V0) (aH V0) (aC V0) (aW V0) (aU V0) :=
  (show res_main_v94 V0 = hostH (res_main_v60 V0) (res_main_v92 V0) from rfl).trans
    (by rw [v60_eq, v92_eq]; exact hostH_eq _ _ _ _ _)

theorem v104_eq : res_main_v104 V0
    = hostGates (Cert.Lstm.hid1 (aX V0) (aH V0) (aC V0) (aW V0) (aU V0)) (Cert.Lstm.slab (aH V0) 2) (Cert.Lstm.slab (aW V0) 2)
        (Cert.Lstm.slab (aU V0) 2) :=
  (show res_main_v104 V0 = hostGates (res_main_v94 V0) (rd2 (aH V0)) (rd2 (aW V0)) (rd2 (aU V0)) from rfl).trans
    (by rw [v94_eq, rd2_eq, rd2_eq, rd2_eq])

theorem v136_eq : res_main_v136 V0 = Cert.Lstm.mem2 (aX V0) (aH V0) (aC V0) (aW V0) (aU V0) :=
  (show res_main_v136 V0 = hostC (res_main_v104 V0) (rd2 (aC V0)) from rfl).trans
    (by rw [v104_eq, rd2_eq, hostC_eq]; rfl)

theorem v138_eq : res_main_v138 V0 = Cert.Lstm.hid2 (aX V0) (aH V0) (aC V0) (aW V0) (aU V0) :=
  (show res_main_v138 V0 = hostH (res_main_v104 V0) (res_main_v136 V0) from rfl).trans
    (by rw [v104_eq, v136_eq]; exact hostH_eq _ _ _ _ _)

theorem v148_eq : res_main_v148 V0
    = hostGates (Cert.Lstm.hid2 (aX V0) (aH V0) (aC V0) (aW V0) (aU V0)) (Cert.Lstm.slab (aH V0) 3) (Cert.Lstm.slab (aW V0) 3)
        (Cert.Lstm.slab (aU V0) 3) :=
  (show res_main_v148 V0 = hostGates (res_main_v138 V0) (rd3 (aH V0)) (rd3 (aW V0)) (rd3 (aU V0)) from rfl).trans
    (by rw [v138_eq, rd3_eq, rd3_eq, rd3_eq])

theorem v180_eq : res_main_v180 V0 = Cert.Lstm.mem3 (aX V0) (aH V0) (aC V0) (aW V0) (aU V0) :=
  (show res_main_v180 V0 = hostC (res_main_v148 V0) (rd3 (aC V0)) from rfl).trans
    (by rw [v148_eq, rd3_eq, hostC_eq]; rfl)

/-- The last layer's hidden state, which the run spells in place. -/
theorem v182_eq : hostH (res_main_v148 V0) (res_main_v180 V0) = Cert.Lstm.hid3 (aX V0) (aH V0) (aC V0) (aW V0) (aU V0) := by
  rw [v148_eq, v180_eq]; exact hostH_eq _ _ _ _ _

/-- The first result's term is the stacked hidden states. -/
theorem outH_eq :
    concatenate S4x4096x1024 0 [⟨S1x4096x1024, (broadcastInDim S1x4096x1024 ![1, 2] bcast_S4096x1024_S1x4096x1024_1_2 (res_main_v50 V0))⟩, ⟨S1x4096x1024, (broadcastInDim S1x4096x1024 ![1, 2] bcast_S4096x1024_S1x4096x1024_1_2 (res_main_v94 V0))⟩, ⟨S1x4096x1024, (broadcastInDim S1x4096x1024 ![1, 2] bcast_S4096x1024_S1x4096x1024_1_2 (res_main_v138 V0))⟩, ⟨S1x4096x1024, (broadcastInDim S1x4096x1024 ![1, 2] bcast_S4096x1024_S1x4096x1024_1_2 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 3, 0] (res_main_v148 V0) slices_S4096x4x1024_S4096x1x1024_0_3_0) shapeCasts_S4096x1x1024_S4096x1024))))) (Host.tanh (res_main_v180 V0))))⟩] concatenates_S1x4096x1024_S1x4096x1024_S1x4096x1024_S1x4096x1024_S4x4096x1024_d0
      = Cert.Lstm.outH (aX V0) (aH V0) (aC V0) (aW V0) (aU V0) :=
  (concat4_eq (res_main_v50 V0) (res_main_v94 V0) (res_main_v138 V0) (hostH (res_main_v148 V0) (res_main_v180 V0))).trans
    (by rw [v50_eq, v94_eq, v138_eq, v182_eq]; rfl)

/-- The second result's term is the stacked memories. -/
theorem outC_eq :
    concatenate S4x4096x1024 0 [⟨S1x4096x1024, (broadcastInDim S1x4096x1024 ![1, 2] bcast_S4096x1024_S1x4096x1024_1_2 (res_main_v48 V0))⟩, ⟨S1x4096x1024, (broadcastInDim S1x4096x1024 ![1, 2] bcast_S4096x1024_S1x4096x1024_1_2 (res_main_v92 V0))⟩, ⟨S1x4096x1024, (broadcastInDim S1x4096x1024 ![1, 2] bcast_S4096x1024_S1x4096x1024_1_2 (res_main_v136 V0))⟩, ⟨S1x4096x1024, (broadcastInDim S1x4096x1024 ![1, 2] bcast_S4096x1024_S1x4096x1024_1_2 (res_main_v180 V0))⟩] concatenates_S1x4096x1024_S1x4096x1024_S1x4096x1024_S1x4096x1024_S4x4096x1024_d0
      = Cert.Lstm.outC (aX V0) (aH V0) (aC V0) (aW V0) (aU V0) :=
  (concat4_eq (res_main_v48 V0) (res_main_v92 V0) (res_main_v136 V0) (res_main_v180 V0)).trans
    (by rw [v48_eq, v92_eq, v136_eq, v180_eq]; rfl)

end Layers

/-! ## The run -/

/-- On every device, from any memory with zero counters: every weakly fair execution of the reference terminates with
    the two results at the specification's stacked hidden states and stacked memories of the embedded input rows and
    the four argument stacks, and the six arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v187)
          = Cert.Lstm.outH (emb (m ((c.tc : Thread nD τ).loc main_arg3)) (m ((c.tc : Thread nD τ).loc main_arg2)))
              (m ((c.tc : Thread nD τ).loc main_arg0)) (m ((c.tc : Thread nD τ).loc main_arg1))
              (m ((c.tc : Thread nD τ).loc main_arg4)) (m ((c.tc : Thread nD τ).loc main_arg5))
      ∧ r.2.mem ((c.tc : Thread nD τ).loc main_v192)
          = Cert.Lstm.outC (emb (m ((c.tc : Thread nD τ).loc main_arg3)) (m ((c.tc : Thread nD τ).loc main_arg2)))
              (m ((c.tc : Thread nD τ).loc main_arg0)) (m ((c.tc : Thread nD τ).loc main_arg1))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono
    (fun _ h c => ⟨(h c).1.trans (outH_eq (launchContents m c)), (h c).2.1.trans (outC_eq (launchContents m c)), (h c).2.2⟩)
    (Cert.ReferenceIdeal.Value.run (F := Ideal) m ρ)

end Cert.RefSide

end
-- ==== Proof.lean ====
/-
  The certificate: a four-layer LSTM step computed by four kernel launches equals its plain reference on the extended reals.

  Both programs take the stacked previous hidden states and memories, a token vector, an embedding table and two stacks
  of weights. The input rows are the table's rows at the tokens; layer `l` forms its gate pre-activations
  `x·Wxₗᵀ + hₗ·Whₗᵀ`, and from their four groups the new memory `σ(f)·cₗ + σ(i)·tanh(g)` and the new hidden state
  `σ(o)·tanh(new memory)`, which is the next layer's input. The kernel program does one layer per launch, 256 rows per grid
  point, writing each layer into its slot of two stacked result arrays; the reference does whole-matrix operations and
  stacks at the end. On the extended reals a change of float format is the identity, a matrix product into a zero
  accumulator is the plain sum of products in any order, and the kernel's logistic is `1 / (1 + e⁻ˣ)` as the reference
  spells it, so both results are one function of the arguments (`Cert.Lstm.outH`, `Cert.Lstm.outC`). No law used needs
  the inputs to be finite: the precondition is never opened.
  The three frame claims: the two kernel programs' are the frame certificate of the launches and the host stretches; the
  reference's is its run with the results dropped. The idealization rewrote nothing, so `preserves` is `True`.
-/
import proofs.«122988_j25082609008752_2_alg».proof.Defs
import proofs.«122988_j25082609008752_2_alg».proof.Proof.Gen.Kernel
import proofs.«122988_j25082609008752_2_alg».proof.Proof.Gen.KernelIdeal
import proofs.«122988_j25082609008752_2_alg».proof.Proof.Gen.ReferenceIdeal
import proofs.«122988_j25082609008752_2_alg».proof.Proof.Gen.ReferenceIdeal.Run
import proofs.«122988_j25082609008752_2_alg».proof.Proof.Gen.Pre_finite_inputs
import proofs.«122988_j25082609008752_2_alg».proof.Proof.KernelFrame
import proofs.«122988_j25082609008752_2_alg».proof.Proof.KernelIdealFrame
import proofs.«122988_j25082609008752_2_alg».proof.Proof.KernelValue
import proofs.«122988_j25082609008752_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- The two programs gather the input rows by the same operations of the same two arguments. -/
theorem emb_eq (E : FVec Ideal Cert.KernelIdeal.S32000x1024 .f32) (tok : IVec Cert.KernelIdeal.S4096 32) :
    Cert.RefSide.emb E tok = Cert.KernelIdeal.Compose.emb E tok := rfl

/-- From memories that agree on the arguments both programs end with the stacked hidden states and the stacked memories
    of the four layers, the same two functions of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Value.run_spec m ρ, ?_⟩
  refine (θ_run Cert.ReferenceIdeal.defs _ _).mono (fun _ h c => ?_) (Cert.RefSide.run_spec m' ρ')
  obtain ⟨h1, h2, h3⟩ := h c
  obtain ⟨e0, e1, e2, e3, e4, e5⟩ := hagree c
  refine ⟨h1.trans ?_, h2.trans ?_, h3⟩
  · rw [e0, e1, e2, e3, e4, e5, emb_eq]
  · rw [e0, e1, e2, e3, e4, e5, emb_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
